-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S600000 32) (main_arg2 : IVec S600000 32) (main_arg3 : FVec F S256x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S50000x128 : Shape := ⟨2, ![50000, 128]⟩
abbrev S600000 : Shape := ⟨1, ![600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S600000x129 : Shape := ⟨2, ![600000, 129]⟩
abbrev S50000x129 : Shape := ⟨2, ![50000, 129]⟩
abbrev S50000x1 : Shape := ⟨2, ![50000, 1]⟩
abbrev S50000 : Shape := ⟨1, ![50000]⟩
abbrev S128x256 : Shape := ⟨2, ![128, 256]⟩
abbrev S1x256 : Shape := ⟨2, ![1, 256]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 37
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .f32⟩
  | .hbm, ⟨17, _⟩ => ⟨S600000x1, .f32⟩
  | .hbm, ⟨18, _⟩ => ⟨S600000x129, .f32⟩
  | .hbm, ⟨19, _⟩ => ⟨S_, .f32⟩
  | .hbm, ⟨20, _⟩ => ⟨S50000x129, .f32⟩
  | .hbm, ⟨21, _⟩ => ⟨S600000x1, .i32⟩
  | .hbm, ⟨22, _⟩ => ⟨S50000x129, .f32⟩
  | .hbm, ⟨23, _⟩ => ⟨S50000x128, .f32⟩
  | .hbm, ⟨24, _⟩ => ⟨S50000x1, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S128x256, .f32⟩
  | .hbm, ⟨33, _⟩ => ⟨S128x256, .f32⟩
  | .hbm, ⟨34, _⟩ => ⟨S1x256, .f32⟩
  | .hbm, ⟨35, _⟩ => ⟨S1x128, .f32⟩
  | .hbm, ⟨36, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  concatenates_S600000x128_S600000x1_S600000x129_d1 : Shape.Concatenates [S600000x128, S600000x1] S600000x129 1
  bcast_S_S50000x129 : S_.BroadcastsInDim S50000x129 (![] : Fin 0 → Fin S50000x129.rank)
  slices_S50000x129_S50000x128_0_0 : S50000x129.Slices ![0, 0] S50000x128
  slices_S50000x129_S50000x1_0_128 : S50000x129.Slices ![0, 128] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x256_S128x256_0_0 : S256x256.Slices ![0, 0] S128x256
  slices_S256x256_S128x256_128_0 : S256x256.Slices ![128, 0] S128x256
  shapeCasts_S256_S1x256 : S256.ShapeCasts S1x256
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x129_S600000x1_S600000x129_1_0_0_1_wf : ScatterDims.WF S50000x129 S600000x1 S600000x129 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x129_S600000x1_S600000x129_1_0_0_1 : ScatterDims S50000x129 S600000x1 S600000x129 where
  updateWindowDims := [1]
  insertedWindowDims := [0]
  scatterDimsToOperandDims := [0]
  indexVectorDim := 1
  wf := scatter_S50000x129_S600000x1_S600000x129_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .f32⟩
  | .hbm, ⟨17, _⟩ => ⟨S50000x128, .f32⟩
  | .hbm, ⟨18, _⟩ => ⟨S600000x1, .i32⟩
  | .hbm, ⟨19, _⟩ => ⟨S50000x128, .f32⟩
  | .hbm, ⟨20, _⟩ => ⟨S_, .f32⟩
  | .hbm, ⟨21, _⟩ => ⟨S600000, .f32⟩
  | .hbm, ⟨22, _⟩ => ⟨S_, .f32⟩
  | .hbm, ⟨23, _⟩ => ⟨S50000, .f32⟩
  | .hbm, ⟨24, _⟩ => ⟨S600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S50000x256, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«133103_j50448685859138_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«133103_j50448685859138_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibSplitProduct.lean ====
/-
  General lemma: a matrix product whose left operand is two arrays laid side by side and whose right operand is cut into the
  matching upper and lower halves is the sum of the two products, entry by entry — a finite sum over `A + B` indices split at
  `A`. Over the extended reals this needs no finiteness: only that addition is commutative and associative. None mentions a
  program.
-/
import proofs.«133103_j50448685859138_2_alg».proof.Proof.LibDense

noncomputable section

namespace Cert.SplitProductLib

open Idealize.ShloMosaic Idealize.ShloMosaic.ValueIdx Cert.LayoutLib Cert.DenseLib

/-- `Z` is `X₁` and `X₂` side by side (`hZ₁`, `hZ₂`), `U` and `Lw` are the upper and lower rows of `W` (`hU`, `hL`):
    `(Z · W) (p, q) = (X₁ · U) (p, q) + (X₂ · Lw) (p, q)`. -/
theorem mm_side_by_side {M A B T N : ℕ} (hT : T = A + B)
    (X₁ : (⟨2, ![M, A]⟩ : Shape).Idx → EReal) (X₂ : (⟨2, ![M, B]⟩ : Shape).Idx → EReal) (Z : (⟨2, ![M, T]⟩ : Shape).Idx → EReal)
    (W : (⟨2, ![T, N]⟩ : Shape).Idx → EReal) (U : (⟨2, ![A, N]⟩ : Shape).Idx → EReal) (Lw : (⟨2, ![B, N]⟩ : Shape).Idx → EReal)
    (p : Fin M) (q : Fin N)
    (hZ₁ : ∀ (k : Fin A) (k' : Fin T), k'.val = k.val → Z (ix2 p k') = X₁ (ix2 p k))
    (hZ₂ : ∀ (k : Fin B) (k' : Fin T), k'.val = A + k.val → Z (ix2 p k') = X₂ (ix2 p k))
    (hU : ∀ (k : Fin A) (k' : Fin T), k'.val = k.val → W (ix2 k' q) = U (ix2 k q))
    (hL : ∀ (k : Fin B) (k' : Fin T), k'.val = A + k.val → W (ix2 k' q) = Lw (ix2 k q)) :
    mm Z W (ix2 p q) = mm X₁ U (ix2 p q) + mm X₂ Lw (ix2 p q) := by
  subst hT
  rw [mm_apply, mm_apply, mm_apply, Fin.sum_univ_add]
  refine congrArg₂ (· + ·) (Finset.sum_congr rfl fun k _ => ?_) (Finset.sum_congr rfl fun k _ => ?_)
  · rw [hZ₁ k (Fin.castAdd B k) rfl, hU k (Fin.castAdd B k) rfl]
  · rw [hZ₂ k (Fin.natAdd A k) rfl, hL k (Fin.natAdd A k) rfl]

end Cert.SplitProductLib

end
-- ==== Proof.LibRows.lean ====
/-
  General lemmas about whole rows of rank-two arrays: a gather of rows of a table at a column of start indices, read
  at an entry; two arrays of equal height laid side by side, read left and right of the seam; two vectors laid end to
  end; a one-column array cast to a vector; a unit-stride cut of a vector. None mentions a program.
-/
import Idealize.ShloMosaic.Lib.ValueIdx
import Idealize.ShloMosaic.Lib.ValueLayout
import Idealize.ShloMosaic.Lib.Pipeline.Value

noncomputable section

namespace Cert.RowsLib

open Idealize.ShloMosaic Idealize.ShloMosaic.ValueIdx

variable {α : Type}

/-! ## A gather of whole rows -/

/-- The dimension numbers of a gather of whole rows: a table of N rows of C entries, a column of R start indices, a
    result of R rows; the row axis is collapsed and named by the start index, the column axis is the offset axis. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read as a signed integer, clamped into the table. -/
def rowOf (N : ℕ) (hN : 0 < N) {w : ℕ} (b : BitVec w) : Fin N := ⟨min b.toInt.toNat (N - 1), by omega⟩

/-- THE ROW GATHER READ AT (r, c): the table at the row that start index r names, column c. -/
theorem gather_rows_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (rowOf N hN (idx (ix2 r (0 : Fin 1)))) c) := by
  unfold Host.gather
  congr 1
  funext a
  refine Fin.ext ?_
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    rw [GatherDims.batchCoord_eq_zero _ _ _ List.not_mem_nil]
    unfold GatherDims.start
    rw [dif_neg (show (1 : Fin 2) ∉ (rowGatherDims N C R wf).startIndexMap from (by decide : (1 : Fin 2) ∉ ([0] : List (Fin 2))))]
    unfold GatherDims.offCoord
    rw [dif_pos (show (1 : Fin 2) ∈ (rowGatherDims N C R wf).sKept from
      (GatherDims.mem_sKept _ _).mpr ⟨(by decide : (1 : Fin 2) ∉ ([0] : List (Fin 2))), List.not_mem_nil⟩)]
    simp only [Nat.zero_add]
    rfl

/-! ## Side by side, end to end -/

/-- Two arrays of M rows laid side by side: left of the seam the result reads the first. -/
theorem concat_cols_left {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩] h (ix2 p k') = x₁ (ix2 p k) :=
  concatenate_pair_apply_left (1 : Fin 2) x₁ x₂ h (ix2 p k') rfl (ix2 p k) (fun b => by
    match b with
    | ⟨0, _⟩ => rfl
    | ⟨1, _⟩ => exact hk.symm)

/-- Right of the seam it reads the second, the first one's width less. -/
theorem concat_cols_right {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩] h (ix2 p k') = x₂ (ix2 p k) :=
  concatenate_pair_apply_right (1 : Fin 2) x₁ x₂ h (ix2 p k') rfl rfl (ix2 p k) (fun b hb => by
    match b with
    | ⟨0, _⟩ => rfl
    | ⟨1, _⟩ => exact absurd rfl hb) (by
    show k.val + A = k'.val
    omega)

/-- Two vectors laid end to end: before the seam the result reads the first. -/
theorem concat_vec_left {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin A) (k' : Fin T) (hk : k'.val = k.val) :
    concatenate ⟨1, ![T]⟩ (0 : Fin 1) [⟨⟨1, ![A]⟩, x₁⟩, ⟨⟨1, ![B]⟩, x₂⟩] h (ix1 k') = x₁ (ix1 k) :=
  concatenate_pair_apply_left (0 : Fin 1) x₁ x₂ h (ix1 k') rfl (ix1 k) (fun b => by
    match b with
    | ⟨0, _⟩ => exact hk.symm)

/-- After the seam it reads the second, the first one's length less. -/
theorem concat_vec_right {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin B) (k' : Fin T) (hk : k'.val = A + k.val) :
    concatenate ⟨1, ![T]⟩ (0 : Fin 1) [⟨⟨1, ![A]⟩, x₁⟩, ⟨⟨1, ![B]⟩, x₂⟩] h (ix1 k') = x₂ (ix1 k) :=
  concatenate_pair_apply_right (0 : Fin 1) x₁ x₂ h (ix1 k') rfl rfl (ix1 k) (fun b hb => by
    match b with
    | ⟨0, _⟩ => exact absurd rfl hb) (by
    show k.val + A = k'.val
    omega)

/-! ## Small casts and cuts -/

/-- A one-column array cast to a vector reads, at p, the column at p. -/
theorem shapeCast_colvec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector cut from o reads, at j, the source at o + j. -/
theorem slice_vec_apply {n m : ℕ} (o : ℕ) (x : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] x h (ix1 j) = x (ix1 k) :=
  extractStridedSlice_apply _ _ _ _ _ (fun ax => by
    match ax with
    | ⟨0, _⟩ => exact hk)

end Cert.RowsLib

end
-- ==== Proof.LibSplitNet.lean ====
/-
  General lemmas: a two-layer perceptron with no inner activation whose first layer reads two feature arrays — a node's own
  features and an aggregate of its neighbours' — through the upper and the lower rows of one weight matrix,
  `max (((X · U + Y · L) + b₁) · W₂ + b₂) 0`, as one whole-array function at any sizes. It is read in the spelling a vector
  unit gives it (two products accumulated into zero splats and added, one-row bias arrays broadcast down the rows, a maximum
  against a splat zero) and in the spelling a host program gives it when the two feature arrays are first laid side by side
  and multiplied by the whole weight matrix: the sum over the joined columns splits at the seam, which needs only that
  addition of extended reals is commutative and associative. Row `p` of the result depends on row `p` of the two feature
  arrays alone, so a result computed block of rows by block of rows is one function of the whole arrays.
-/
import proofs.«133103_j50448685859138_2_alg».proof.Proof.LibRowBlocks
import proofs.«133103_j50448685859138_2_alg».proof.Proof.LibSplitProduct
import proofs.«133103_j50448685859138_2_alg».proof.Proof.LibRows

noncomputable section

namespace Cert.SplitNetLib

open Idealize.ShloMosaic Idealize.ShloMosaic.ValueIdx Cert.DenseLib Cert.RowsLib Cert.LayoutLib Cert.RowBlocks Cert.SplitProductLib

/-- A rank-two array of extended reals. -/
abbrev Arr (a b : ℕ) : Type := (⟨2, ![a, b]⟩ : Shape).Idx → EReal

variable {M A H O : ℕ}

/-- The first layer before its bias, on split inputs: `X · U + Y · L`. -/
def mix (X Y : Arr M A) (U L : Arr A H) : Arr M H := plus (mm X U) (mm Y L)

/-- The network on split inputs: `max (((X · U + Y · L) + b₁) · W₂ + b₂) 0`. -/
def net (X Y : Arr M A) (U L : Arr A H) (b₁ : Fin H → EReal) (W₂ : Arr H O) (b₂ : Fin O → EReal) : Arr M O :=
  relu (affine (biased (mix X Y U L) b₁) W₂ b₂)

/-- The network on joined inputs: `max ((Z · W₁ + b₁) · W₂ + b₂) 0`. -/
def netJoined {T : ℕ} (Z : Arr M T) (W₁ : Arr T H) (b₁ : Fin H → EReal) (W₂ : Arr H O) (b₂ : Fin O → EReal) : Arr M O :=
  relu (affine (biased (mm Z W₁) b₁) W₂ b₂)

/-! ## Row by row -/

/-- An entry of `X · U + Y · L` is determined by its row of `X` and of `Y`. -/
theorem mix_eq_of_row {M' : ℕ} (X' Y' : Arr M' A) (X Y : Arr M A) (U L : Arr A H) (p' : Fin M') (p : Fin M)
    (hX : ∀ k : Fin A, X' (ix2 p' k) = X (ix2 p k)) (hY : ∀ k : Fin A, Y' (ix2 p' k) = Y (ix2 p k)) (q : Fin H) :
    mix X' Y' U L (ix2 p' q) = mix X Y U L (ix2 p q) := by
  show mm X' U (ix2 p' q) + mm Y' L (ix2 p' q) = mm X U (ix2 p q) + mm Y L (ix2 p q)
  rw [mm_row X' X U p' p hX q, mm_row Y' Y L p' p hY q]

/-- An entry of the network's result is determined by its row of the two feature arrays: if row `j 0` of `X'`, `Y'` is row
    `i 0` of `X`, `Y`, the weights and biases agree and the columns `j 1`, `i 1` are the same, the two entries are equal. -/
theorem net_eq_of_row {M' : ℕ} (X' Y' : Arr M' A) (U' L' : Arr A H) (b₁' : Fin H → EReal) (W₂' : Arr H O) (b₂' : Fin O → EReal)
    (X Y : Arr M A) (U L : Arr A H) (b₁ : Fin H → EReal) (W₂ : Arr H O) (b₂ : Fin O → EReal)
    (j : (⟨2, ![M', O]⟩ : Shape).Idx) (i : (⟨2, ![M, O]⟩ : Shape).Idx)
    (hU : U' = U) (hL : L' = L) (hb₁ : b₁' = b₁) (hW : W₂' = W₂) (hb₂ : b₂' = b₂) (hq : (j 1).val = (i 1).val)
    (hX : ∀ k : Fin A, X' (ix2 (n0 := M') (j 0) k) = X (ix2 (n0 := M) (i 0) k))
    (hY : ∀ k : Fin A, Y' (ix2 (n0 := M') (j 0) k) = Y (ix2 (n0 := M) (i 0) k)) :
    net X' Y' U' L' b₁' W₂' b₂' j = net X Y U L b₁ W₂ b₂ i := by
  subst hU hL hb₁ hb₂
  show max (mm (biased (mix X' Y' U' L') b₁') W₂' j + b₂' (j 1)) 0 = max (mm (biased (mix X Y U' L') b₁') W₂ i + b₂' (i 1)) 0
  have e : (j 1 : Fin O) = (i 1 : Fin O) := Fin.ext hq
  rw [mm_eq_of_row (biased (mix X' Y' U' L') b₁') W₂' (biased (mix X Y U' L') b₁') W₂ j i hW hq (fun k => by
    show mix X' Y' U' L' (ix2 (j 0) k) + b₁' k = mix X Y U' L' (ix2 (i 0) k) + b₁' k
    rw [mix_eq_of_row X' Y' X Y U' L' (j 0) (i 0) hX hY k]), e]

/-! ## Joined inputs -/

/-- With `Z` the two feature arrays side by side and `U`, `L` the upper and lower rows of `W₁`, the product with the whole
    matrix is the sum of the two half products: the network on joined inputs is the network on split inputs. -/
theorem netJoined_eq_net {B T : ℕ} (hT : T = A + B) (X : Arr M A) (Y : Arr M B) (Z : Arr M T)
    (W₁ : Arr T H) (U : Arr A H) (L : Arr B H) (b₁ : Fin H → EReal) (W₂ : Arr H O) (b₂ : Fin O → EReal)
    (hZ₁ : ∀ (p : Fin M) (k : Fin A) (k' : Fin T), k'.val = k.val → Z (ix2 p k') = X (ix2 p k))
    (hZ₂ : ∀ (p : Fin M) (k : Fin B) (k' : Fin T), k'.val = A + k.val → Z (ix2 p k') = Y (ix2 p k))
    (hU : ∀ (q : Fin H) (k : Fin A) (k' : Fin T), k'.val = k.val → W₁ (ix2 k' q) = U (ix2 k q))
    (hL : ∀ (q : Fin H) (k : Fin B) (k' : Fin T), k'.val = A + k.val → W₁ (ix2 k' q) = L (ix2 k q)) :
    mm Z W₁ = plus (mm X U) (mm Y L) := by
  funext i
  obtain ⟨p, q, rfl⟩ : ∃ (p : Fin M) (q : Fin H), i = ix2 p q := ⟨i 0, i 1, eq_ix2 i⟩
  exact mm_side_by_side hT X Y Z W₁ U L p q (hZ₁ p) (hZ₂ p) (hU q) (hL q)

/-! ## The vector unit's spelling -/

/-- Two products accumulated into zero splats and added, the one-row biases broadcast down the rows, a maximum against a
    splat zero: the network on split inputs, the biases read off their one row. A change of float format is the identity. -/
theorem vector_eq_net
    (D₁ : DotDims ⟨2, ![M, A]⟩ ⟨2, ![A, H]⟩ ⟨2, ![M, H]⟩) (hD₁ : D₁ = DotDims.plain M A H)
    (D₂ : DotDims ⟨2, ![M, H]⟩ ⟨2, ![H, O]⟩ ⟨2, ![M, O]⟩) (hD₂ : D₂ = DotDims.plain M H O)
    (hr₁ : (⟨2, ![1, H]⟩ : Shape).Broadcasts ⟨2, ![M, H]⟩) (hr₂ : (⟨2, ![1, O]⟩ : Shape).Broadcasts ⟨2, ![M, O]⟩)
    {φ₁ φ₂ φ₃ φ₄ φ₅ φ₆ : FTy}
    (X : FVec Ideal ⟨2, ![M, A]⟩ φ₁) (Y : FVec Ideal ⟨2, ![M, A]⟩ φ₂) (U : FVec Ideal ⟨2, ![A, H]⟩ φ₃) (L : FVec Ideal ⟨2, ![A, H]⟩ φ₄)
    (B₁ : FVec Ideal ⟨2, ![1, H]⟩ .f32) (W₂ : FVec Ideal ⟨2, ![H, O]⟩ φ₅) (B₂ : FVec Ideal ⟨2, ![1, O]⟩ .f32)
    (hφ : φ₆.bits < FTy.f32.bits) :
    maximumf
        (addf
          (matmul D₂ none
            (truncf φ₆
              (addf
                (addf (matmul D₁ none X U (constant ⟨2, ![M, H]⟩ .f32 0x00000000#32))
                  (matmul D₁ none Y L (constant ⟨2, ![M, H]⟩ .f32 0x00000000#32)))
                (broadcastTo ⟨2, ![M, H]⟩ B₁ hr₁)) hφ)
            W₂ (constant ⟨2, ![M, O]⟩ .f32 0x00000000#32))
          (broadcastTo ⟨2, ![M, O]⟩ B₂ hr₂))
        (broadcast ⟨2, ![M, O]⟩ (Scalar.ofBits (F := Ideal) .f32 0x00000000#32))
      = net X Y U L (fun c => B₁ (ix2 (0 : Fin 1) c)) W₂ (fun c => B₂ (ix2 (0 : Fin 1) c)) := by
  rw [maximumf_splat_zero, truncf_eq, matmul_eq_mm D₁ hD₁, matmul_eq_mm D₁ hD₁, broadcastTo_eq_rows, broadcastTo_eq_rows]
  show relu (addf (matmul D₂ none (plus (plus (mm X U) (mm Y L)) (rows fun c => B₁ (ix2 (0 : Fin 1) c))) W₂
      (constant ⟨2, ![M, O]⟩ .f32 0x00000000#32)) (rows fun c => B₂ (ix2 (0 : Fin 1) c))) = _
  rw [matmul_eq_mm D₂ hD₂]
  rfl

/-! ## The host's spelling -/

/-- Two arrays laid side by side multiplied by the whole first weight matrix in a general dot, each bias a vector
    broadcast in two steps, a maximum against a broadcast scalar zero: the network on joined inputs. -/
theorem host_eq_netJoined {T : ℕ}
    (D₁ : DotDims ⟨2, ![M, T]⟩ ⟨2, ![T, H]⟩ ⟨2, ![M, H]⟩) (hD₁ : D₁ = DotDims.plain M T H)
    (D₂ : DotDims ⟨2, ![M, H]⟩ ⟨2, ![H, O]⟩ ⟨2, ![M, O]⟩) (hD₂ : D₂ = DotDims.plain M H O)
    (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2))
    (h3 : (⟨1, ![O]⟩ : Shape).BroadcastsInDim ⟨2, ![1, O]⟩ (![1] : Fin 1 → Fin 2))
    (h4 : (⟨2, ![1, O]⟩ : Shape).BroadcastsInDim ⟨2, ![M, O]⟩ (![0, 1] : Fin 2 → Fin 2))
    (hz : (⟨0, ![]⟩ : Shape).BroadcastsInDim ⟨2, ![M, O]⟩ (![] : Fin 0 → Fin 2))
    (Z : FVec Ideal ⟨2, ![M, T]⟩ .f32) (W₁ : FVec Ideal ⟨2, ![T, H]⟩ .f32) (b₁ : FVec Ideal ⟨1, ![H]⟩ .f32)
    (W₂ : FVec Ideal ⟨2, ![H, O]⟩ .f32) (b₂ : FVec Ideal ⟨1, ![O]⟩ .f32) :
    maximumf
        (addf
          (Host.dotGeneral D₂ none
            (addf (Host.dotGeneral D₁ none Z W₁)
              (broadcastInDim ⟨2, ![M, H]⟩ ![0, 1] h2 (broadcastInDim ⟨2, ![1, H]⟩ ![1] h1 b₁)))
            W₂)
          (broadcastInDim ⟨2, ![M, O]⟩ ![0, 1] h4 (broadcastInDim ⟨2, ![1, O]⟩ ![1] h3 b₂)))
        (broadcastInDim ⟨2, ![M, O]⟩ ![] hz (constant (F := Ideal) ⟨0, ![]⟩ .f32 0x00000000#32))
      = netJoined Z W₁ (fun c => b₁ (ix1 c)) W₂ (fun c => b₂ (ix1 c)) := by
  rw [maximumf_bcast_zero, dotGeneral_eq_mm D₁ hD₁, broadcastInDim_eq_rows, broadcastInDim_eq_rows]
  show relu (addf (Host.dotGeneral D₂ none (plus (mm Z W₁) (rows fun c => b₁ (ix1 c))) W₂) (rows fun c => b₂ (ix1 c))) = _
  rw [dotGeneral_eq_mm D₂ hD₂]
  rfl

end Cert.SplitNetLib

end
-- ==== Proof.KernelBody.lean ====
/-
  The kernel body's arithmetic on one block of rows: the block of own features and the block of neighbour means through the
  two halves of the first weight matrix, the biases read off their one row, the second weight matrix, the cut at zero — the
  network on split inputs, at 5000 rows. The changes of float format and the casts of a shape to itself are identities.
-/
import proofs.«133103_j50448685859138_2_alg».proof.Proof.Gen.KernelIdeal.Skeleton
import proofs.«133103_j50448685859138_2_alg».proof.Proof.LibSplitNet

noncomputable section

namespace Cert.KernelIdeal.Body

open Cert.KernelIdeal Cert.KernelIdeal.Gen Idealize.ShloMosaic Idealize.ShloMosaic.ValueIdx Cert.DenseLib Cert.SplitNetLib

/-- The one store's value is the network of the body's seven loads. -/
theorem pay_eq (x0 x1 : Vec Ideal S5000x128 .f32) (x2 x3 : Vec Ideal S128x256 .f32) (x4 : Vec Ideal S1x256 .f32)
    (x5 : Vec Ideal S256x128 .f32) (x6 : Vec Ideal S1x128 .f32) :
    k0_pay1 x0 x1 x2 x3 x4 x5 x6
      = net (M := 5000) (A := 128) (H := 256) (O := 128) x0 x1 x2 x3 (fun c => x4 (ix2 (0 : Fin 1) c)) x5
          (fun c => x6 (ix2 (0 : Fin 1) c)) := by
  unfold k0_pay1
  dsimp only
  rw [shapeCast_self, shapeCast_self, shapeCast_self, shapeCast_self, shapeCast_self]
  exact vector_eq_net (M := 5000) (A := 128) (H := 256) (O := 128)
    dot_S5000x128_S128x256_S5000x256_1_0_0_1_n_n rfl dot_S5000x256_S256x128_S5000x128_1_0_0_1_n_n rfl
    broadcasts_S1x256_S5000x256 broadcasts_S1x128_S5000x128 _ _ _ _ x4 _ x6 bitsLt_bf16_f32

end Cert.KernelIdeal.Body

end
-- ==== Proof.LibScatter.lean ====
/-
  General lemmas about the accumulating scatter of whole rows, read at an entry: a table of rows to which update rows
  are added at the rows a column of start indices names, and the same for a vector to which update entries are added.
  The result at an entry is the table's entry plus the sum of the updates whose start index, read as a signed integer,
  names that row; an update whose start index names no row of the table contributes nothing. None mentions a program.
-/
import Idealize.ShloMosaic.Lib.ValueIdx
import Idealize.ShloMosaic.Lib.ValueLayout
import Idealize.ShloMosaic.Lib.Pipeline.Value
import Idealize.ShloMosaic.PureOps.Ideal.Laws

noncomputable section

namespace Cert.ScatterLib

open Idealize.ShloMosaic Idealize.ShloMosaic.ValueIdx

/-! ## Update rows added into a table -/

/-- The dimension numbers of a scatter of whole rows: a table of N rows of C entries, a column of R start indices,
    R update rows of C entries; the row axis of the table is named by the start index, the column axis is the
    window axis. -/
abbrev rowScatterDims (N C R : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows

variable {N C R : ℕ} (wf : ScatterDims.WF ⟨2, ![N, C]⟩ ⟨2, ![R, 1]⟩ ⟨2, ![R, C]⟩ [1] [0] [0] 1)

/-- On the row axis the window coordinate of an update entry is zero: the row comes from the start index alone. -/
theorem rows_window_zero (r : Fin R) (k' : Fin C) :
    (rowScatterDims N C R wf).window (ix2 r k') (0 : Fin 2) = 0 := by
  unfold ScatterDims.window
  rw [dif_neg (show (0 : Fin 2) ∉ (rowScatterDims N C R wf).sKept from
    (by decide : (0 : Fin 2) ∉ ([1] : List (Fin 2))))]

/-- On the column axis the window coordinate of update entry (r, k') is k'. -/
theorem rows_window_one (r : Fin R) (k' : Fin C) :
    (rowScatterDims N C R wf).window (ix2 r k') (1 : Fin 2) = k'.val := by
  unfold ScatterDims.window
  rw [dif_pos (show (1 : Fin 2) ∈ (rowScatterDims N C R wf).sKept from
    (by decide : (1 : Fin 2) ∈ ([1] : List (Fin 2))))]
  rfl

variable {w : ℕ} (idx : IVec ⟨2, ![R, 1]⟩ w)

/-- On the row axis the window of update entry (r, k') starts at start index r, read as a signed integer. -/
theorem rows_start_zero (r : Fin R) (k' : Fin C) :
    (rowScatterDims N C R wf).start (ix2 r k') idx (0 : Fin 2) = (idx (ix2 r (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 r k')
      ⟨List.idxOf (0 : Fin 2) (rowScatterDims N C R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- On the column axis the window starts at zero. -/
theorem rows_start_one (r : Fin R) (k' : Fin C) :
    (rowScatterDims N C R wf).start (ix2 r k') idx (1 : Fin 2) = 0 := by
  unfold ScatterDims.start
  rw [dif_neg (show (1 : Fin 2) ∉ (rowScatterDims N C R wf).scatterDimsToOperandDims from
    (by decide : (1 : Fin 2) ∉ ([0] : List (Fin 2))))]

/-- WHERE AN UPDATE ENTRY LANDS: update entry (r, k') lands at table entry (b, k) exactly when start index r, read
    as a signed integer, is b, and k' is k. -/
theorem rows_resultIdx_iff (r : Fin R) (k' : Fin C) (b : Fin N) (k : Fin C) :
    (rowScatterDims N C R wf).resultIdx? (ix2 r k') idx = some (ix2 b k) ↔
      (idx (ix2 r (0 : Fin 1))).toInt = (b.val : ℤ) ∧ k' = k := by
  have s0 := rows_start_zero wf idx r k'
  have s1 := rows_start_one wf idx r k'
  have w0 := rows_window_zero wf r k'
  have w1 := rows_window_one wf r k'
  have hN : (⟨2, ![N, C]⟩ : Shape).size (0 : Fin 2) = N := rfl
  have hC : (⟨2, ![N, C]⟩ : Shape).size (1 : Fin 2) = C := rfl
  have hb := b.isLt
  have hk := k.isLt
  have hk' := k'.isLt
  unfold ScatterDims.resultIdx?
  split
  · rename_i h
    have h0 := h (0 : Fin 2)
    rw [s0, w0] at h0
    constructor
    · intro he
      have he' := Option.some.inj he
      have e0 : ((rowScatterDims N C R wf).start (ix2 r k') idx (0 : Fin 2)
          + ((rowScatterDims N C R wf).window (ix2 r k') (0 : Fin 2) : ℕ)).toNat = b.val :=
        congrArg Fin.val (congrFun he' (0 : Fin 2))
      have e1 : ((rowScatterDims N C R wf).start (ix2 r k') idx (1 : Fin 2)
          + ((rowScatterDims N C R wf).window (ix2 r k') (1 : Fin 2) : ℕ)).toNat = k.val :=
        congrArg Fin.val (congrFun he' (1 : Fin 2))
      rw [s0, w0] at e0
      rw [s1, w1] at e1
      exact ⟨by omega, Fin.ext (by omega)⟩
    · rintro ⟨hbe, hke⟩
      refine congrArg some (funext (Fin.forall_fin_two.2 ⟨Fin.ext ?_, Fin.ext ?_⟩))
      · show ((rowScatterDims N C R wf).start (ix2 r k') idx (0 : Fin 2)
          + ((rowScatterDims N C R wf).window (ix2 r k') (0 : Fin 2) : ℕ)).toNat = b.val
        rw [s0, w0]; omega
      · show ((rowScatterDims N C R wf).start (ix2 r k') idx (1 : Fin 2)
          + ((rowScatterDims N C R wf).window (ix2 r k') (1 : Fin 2) : ℕ)).toNat = k.val
        rw [s1, w1, hke]; omega
  · rename_i h
    constructor
    · intro he; exact absurd he (by simp)
    · rintro ⟨hbe, hke⟩
      exfalso; apply h
      refine Fin.forall_fin_two.2 ⟨?_, ?_⟩
      · rw [s0, w0, hN]; omega
      · rw [s1, w1, hC]; omega

/-- The same for an update index not yet split into its coordinates. -/
theorem rows_resultIdx_iff' (j : (⟨2, ![R, C]⟩ : Shape).Idx) (b : Fin N) (k : Fin C) :
    (rowScatterDims N C R wf).resultIdx? j idx = some (ix2 b k) ↔
      (idx (ix2 (j (0 : Fin 2)) (0 : Fin 1))).toInt = (b.val : ℤ) ∧ j (1 : Fin 2) = k := by
  have e : (ix2 (j (0 : Fin 2)) (j (1 : Fin 2)) : (⟨2, ![R, C]⟩ : Shape).Idx) = j := (eq_ix2 j).symm
  have h := rows_resultIdx_iff wf idx (j (0 : Fin 2)) (j (1 : Fin 2)) b k
  rw [e] at h
  exact h

end Rows

/-- THE ROW SCATTER READ AT (b, k): the table's entry plus the sum, over the update rows whose start index, read as
    a signed integer, is b, of their entry in column k. -/
theorem scatterAdd_rows_apply {N C R w : ℕ}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (b : Fin N) (k : Fin C) :
    Ideal.hostScatterAdd (rowScatterDims N C R wf) x idx upd (ix2 b k) = x (ix2 b k)
      + ∑ r ∈ Finset.univ.filter (fun r : Fin R => (idx (ix2 r (0 : Fin 1))).toInt = (b.val : ℤ)), upd (ix2 r k) := by
  unfold Ideal.hostScatterAdd
  congr 1
  refine Finset.sum_nbij' (fun j => ((j (0 : Fin 2)) : Fin R)) (fun r => (ix2 r k : (⟨2, ![R, C]⟩ : Shape).Idx))
    ?_ ?_ ?_ ?_ ?_
  · intro j hj
    have hj' := (rows_resultIdx_iff' wf idx j b k).1 (Finset.mem_filter.1 hj).2
    exact Finset.mem_filter.2 ⟨Finset.mem_univ _, hj'.1⟩
  · intro r hr
    exact Finset.mem_filter.2 ⟨Finset.mem_univ _,
      (rows_resultIdx_iff wf idx r k b k).2 ⟨(Finset.mem_filter.1 hr).2, rfl⟩⟩
  · intro j hj
    have hj' := (rows_resultIdx_iff' wf idx j b k).1 (Finset.mem_filter.1 hj).2
    show ix2 (j (0 : Fin 2)) k = j
    rw [← hj'.2]; exact (eq_ix2 j).symm
  · intro r _; rfl
  · intro j hj
    have hj' := (rows_resultIdx_iff' wf idx j b k).1 (Finset.mem_filter.1 hj).2
    show upd j = upd (ix2 (j (0 : Fin 2)) k)
    rw [← hj'.2]; exact congrArg upd (eq_ix2 j)

/-! ## Update entries added into a vector -/

/-- The dimension numbers of a scatter of single entries into a vector: a vector of N entries, a column of R start
    indices, R update entries; the vector's one axis is named by the start index and there is no window axis. -/
abbrev vecScatterDims (N R : ℕ)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec

variable {N R : ℕ} (wf : ScatterDims.WF ⟨1, ![N]⟩ ⟨2, ![R, 1]⟩ ⟨1, ![R]⟩ [] [0] [0] 1)

/-- The window coordinate of an update entry is zero: the place comes from the start index alone. -/
theorem vec_window_zero (r : Fin R) :
    (vecScatterDims N R wf).window (ix1 r) (0 : Fin 1) = 0 := by
  unfold ScatterDims.window
  rw [dif_neg (show (0 : Fin 1) ∉ (vecScatterDims N R wf).sKept from
    (by decide : (0 : Fin 1) ∉ ([] : List (Fin 1))))]

variable {w : ℕ} (idx : IVec ⟨2, ![R, 1]⟩ w)

/-- The window of update entry r starts at start index r, read as a signed integer. -/
theorem vec_start_zero (r : Fin R) :
    (vecScatterDims N R wf).start (ix1 r) idx (0 : Fin 1) = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r)
      ⟨List.idxOf (0 : Fin 1) (vecScatterDims N R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- WHERE AN UPDATE ENTRY LANDS: update entry r lands at vector entry b exactly when start index r, read as a signed
    integer, is b. -/
theorem vec_resultIdx_iff (r : Fin R) (b : Fin N) :
    (vecScatterDims N R wf).resultIdx? (ix1 r) idx = some (ix1 b) ↔
      (idx (ix2 r (0 : Fin 1))).toInt = (b.val : ℤ) := by
  have s0 := vec_start_zero wf idx r
  have w0 := vec_window_zero wf r
  have hN : (⟨1, ![N]⟩ : Shape).size (0 : Fin 1) = N := rfl
  have hb := b.isLt
  unfold ScatterDims.resultIdx?
  split
  · rename_i h
    have h0 := h (0 : Fin 1)
    rw [s0, w0] at h0
    constructor
    · intro he
      have he' := Option.some.inj he
      have e0 : ((vecScatterDims N R wf).start (ix1 r) idx (0 : Fin 1)
          + ((vecScatterDims N R wf).window (ix1 r) (0 : Fin 1) : ℕ)).toNat = b.val :=
        congrArg Fin.val (congrFun he' (0 : Fin 1))
      rw [s0, w0] at e0
      omega
    · intro hbe
      refine congrArg some (funext (Fin.forall_fin_one.2 (Fin.ext ?_)))
      show ((vecScatterDims N R wf).start (ix1 r) idx (0 : Fin 1)
          + ((vecScatterDims N R wf).window (ix1 r) (0 : Fin 1) : ℕ)).toNat = b.val
      rw [s0, w0]; omega
  · rename_i h
    constructor
    · intro he; exact absurd he (by simp)
    · intro hbe
      exfalso; apply h
      refine Fin.forall_fin_one.2 ?_
      rw [s0, w0, hN]; omega

/-- The same for an update index not yet split into its coordinate. -/
theorem vec_resultIdx_iff' (j : (⟨1, ![R]⟩ : Shape).Idx) (b : Fin N) :
    (vecScatterDims N R wf).resultIdx? j idx = some (ix1 b) ↔
      (idx (ix2 (j (0 : Fin 1)) (0 : Fin 1))).toInt = (b.val : ℤ) := by
  have e : (ix1 (j (0 : Fin 1)) : (⟨1, ![R]⟩ : Shape).Idx) = j := (eq_ix1 j).symm
  have h := vec_resultIdx_iff wf idx (j (0 : Fin 1)) b
  rw [e] at h
  exact h

end Vec

/-- THE VECTOR SCATTER READ AT b: the vector's entry plus the sum of the update entries whose start index, read as a
    signed integer, is b. -/
theorem scatterAdd_vec_apply {N R w : ℕ}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (b : Fin N) :
    Ideal.hostScatterAdd (vecScatterDims N R wf) x idx upd (ix1 b) = x (ix1 b)
      + ∑ r ∈ Finset.univ.filter (fun r : Fin R => (idx (ix2 r (0 : Fin 1))).toInt = (b.val : ℤ)), upd (ix1 r) := by
  unfold Ideal.hostScatterAdd
  congr 1
  refine Finset.sum_nbij' (fun j => ((j (0 : Fin 1)) : Fin R)) (fun r => (ix1 r : (⟨1, ![R]⟩ : Shape).Idx))
    ?_ ?_ ?_ ?_ ?_
  · intro j hj
    exact Finset.mem_filter.2 ⟨Finset.mem_univ _, (vec_resultIdx_iff' wf idx j b).1 (Finset.mem_filter.1 hj).2⟩
  · intro r hr
    exact Finset.mem_filter.2 ⟨Finset.mem_univ _, (vec_resultIdx_iff wf idx r b).2 (Finset.mem_filter.1 hr).2⟩
  · intro j _
    exact (eq_ix1 j).symm
  · intro r _; rfl
  · intro j _
    exact congrArg upd (eq_ix1 j)

end Cert.ScatterLib

end
-- ==== Proof.LibSageSpec.lean ====
/-
  The mathematics of a two-layer mean-aggregation graph network, as functions of whole arrays over the extended
  reals: rows of a table taken at a column of start indices, update rows summed per destination row, a per-row
  scale, column means, the normalisation of every column followed by the cut at zero, and the two ways the second
  layer may be arranged (the weight applied before or after the aggregation). No program is mentioned.
-/
import proofs.«133103_j50448685859138_2_alg».proof.Proof.LibDense
import proofs.«133103_j50448685859138_2_alg».proof.Proof.LibRows
import proofs.«133103_j50448685859138_2_alg».proof.Proof.LibScatter

noncomputable section

namespace Cert.Sage

open Idealize.ShloMosaic Idealize.ShloMosaic.ValueIdx Cert.DenseLib Cert.RowsLib

/-- A rank-two array of extended reals. -/
abbrev Mat (a b : ℕ) : Type := (⟨2, ![a, b]⟩ : Shape).Idx → EReal
/-- A vector of extended reals. -/
abbrev Vc (a : ℕ) : Type := (⟨1, ![a]⟩ : Shape).Idx → EReal
/-- A column of 32-bit start indices. -/
abbrev ICol (R : ℕ) : Type := IVec ⟨2, ![R, 1]⟩ 32

/-- Every entry is a real number (neither infinity). -/
def IsFin {s : Shape} (X : s.Idx → EReal) : Prop := ∀ i, ∃ r : ℝ, X i = (r : EReal)

variable {N C R : ℕ}

/-- Row `r` of the result is the row of `X` that start index `r` names (clamped into the table). -/
def takeRows (hN : 0 < N) (src : ICol R) (X : Mat N C) : Mat R C :=
  fun i => X (ix2 (rowOf N hN (src (ix2 (n0 := R) (i 0) (0 : Fin 1)))) (n1 := C) (i 1))

/-- Row `b` of the result is the sum of the update rows whose start index, read as a signed integer, is `b`. -/
def segSum (dst : ICol R) (U : Mat R C) : Mat N C :=
  fun i => ∑ r ∈ Finset.univ.filter (fun r : Fin R => (dst (ix2 r (0 : Fin 1))).toInt = (((i 0 : Fin N)).val : ℤ)),
    U (ix2 r (n1 := C) (i 1))

/-- Every row scaled by that row's entry of `d`. -/
def scaleRows (d : Vc N) (X : Mat N C) : Mat N C := fun i => X i * d (ix1 (n := N) (i 0))

/-- The mean aggregation: neighbours' rows taken, summed per destination, scaled by the reciprocal degree. -/
def meanAgg (hN : 0 < N) (src dst : ICol R) (d : Vc N) (X : Mat N C) : Mat N C :=
  scaleRows d (segSum dst (takeRows hN src X))

/-- The column sums (from zero) divided by the constant `cN`. -/
def colMean (cN : EReal) (X : Mat N C) : Vc C :=
  fun j => Ideal.div (0 + ∑ n : Fin N, X (ix2 n (n1 := C) (j 0))) cN

/-- The squared deviation of every entry from its column's value of `mu`. -/
def sqDev (X : Mat N C) (mu : Vc C) : Mat N C :=
  fun i => (X i - mu (ix1 (n := C) (i 1))) * (X i - mu (ix1 (n := C) (i 1)))

/-- Every column centred, scaled by the reciprocal root of its variance plus `eps`, by `gamma`, shifted by `beta`,
    and cut at zero. -/
def bnRelu (eps : EReal) (X : Mat N C) (mu var gamma beta : Vc C) : Mat N C :=
  fun i => max (((X i - mu (ix1 (n := C) (i 1))) * Ideal.rsqrt (var (ix1 (n := C) (i 1)) + eps))
    * gamma (ix1 (n := C) (i 1)) + beta (ix1 (n := C) (i 1))) 0

/-- The one row of a one-row array, as a vector. -/
def rowVec (B : Mat 1 C) : Vc C := fun j => B (ix2 (0 : Fin 1) (n1 := C) (j 0))

/-- A vector laid along every row. -/
def vrows {M : ℕ} (b : Vc C) : Mat M C := rows (M := M) fun c => b (ix1 c)

/-- The first layer before normalisation: aggregated features and own features through their weights, plus the
    bias (the bias added last). -/
def layer1 {K : ℕ} (A X : Mat N K) (Wl Wr : Mat K C) (b : Vc C) : Mat N C :=
  plus (plus (mm A Wl) (mm X Wr)) (vrows b)

/-- The hidden features: the first layer, normalised per column with its own column means and variances, cut at zero. -/
def hidden {K : ℕ} (cN eps : EReal) (A X : Mat N K) (Wl Wr : Mat K C) (b gamma beta : Vc C) : Mat N C :=
  bnRelu eps (layer1 A X Wl Wr b) (colMean cN (layer1 A X Wl Wr b))
    (colMean cN (sqDev (layer1 A X Wl Wr b) (colMean cN (layer1 A X Wl Wr b)))) gamma beta

/-- The second layer with the weight applied BEFORE the aggregation, the bias added last. -/
def outPre {K : ℕ} (hN : 0 < N) (src dst : ICol R) (d : Vc N) (H : Mat N K) (Wl Wr : Mat K C) (b : Vc C) : Mat N C :=
  plus (plus (meanAgg hN src dst d (mm H Wl)) (mm H Wr)) (vrows b)

/-- The second layer with the weight applied AFTER the aggregation, the bias added before the own-feature term. -/
def outPost {K : ℕ} (hN : 0 < N) (src dst : ICol R) (d : Vc N) (H : Mat N K) (Wl Wr : Mat K C) (b : Vc C) : Mat N C :=
  plus (plus (mm (meanAgg hN src dst d H) Wl) (vrows b)) (mm H Wr)

end Cert.Sage

end
-- ==== Proof.LibSageHost.lean ====
/-
  The host's spellings of the graph network's stages, each as ONE function of its operands over the extended reals:
  a gather of whole rows is the rows taken at the start indices; update rows added into a broadcast-zero table are
  the update rows summed per destination row; the product with a vector broadcast to a column and along the rows
  scales every row; a sum down the columns from a zero initial value divided by a broadcast constant is the column
  mean; the centred, scaled, shifted array cut at zero is the normalisation; two general dots and a bias row are the
  layers' arrangements. Every dimension record and every shape side condition is an argument, so that any program's
  own records can be plugged in. No program is mentioned.
-/
import proofs.«133103_j50448685859138_2_alg».proof.Proof.LibSageSpec
import Idealize.ShloMosaic.PureOps.Ideal.Laws
import Idealize.ShloMosaic.Lib.ValueIdx
import Idealize.ShloMosaic.Lib.Pipeline.Value

noncomputable section

namespace Cert.Sage

open Idealize.ShloMosaic Idealize.ShloMosaic.ValueIdx Cert.DenseLib Cert.RowsLib Cert.ScatterLib Cert.LayoutLib

section Host

variable {N C R K : ℕ}

/-- A gather of whole rows is the rows of the table taken at the start indices. -/
theorem gather_eq_takeRows (hN : 0 < N)
    (wf : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wf)
    (X : FVec Ideal ⟨2, ![N, C]⟩ .f32) (s : ICol R) :
    Host.gather g X s = takeRows hN s X := by
  subst hg
  funext i
  obtain ⟨r, c, rfl⟩ : ∃ (r : Fin R) (c : Fin C), i = ix2 r c := ⟨i 0, i 1, eq_ix2 i⟩
  exact gather_rows_apply hN wf X s r c

/-- Update rows added into a zero table are the update rows summed per destination row. -/
theorem scatter_eq_segSum
    (wf : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wf)
    (hb : (⟨0, ![]⟩ : Shape).BroadcastsInDim ⟨2, ![N, C]⟩ (![] : Fin 0 → Fin 2))
    (idx : ICol R) (U : FVec Ideal ⟨2, ![R, C]⟩ .f32) :
    Host.scatterAdd (F := Ideal) sc
        (broadcastInDim ⟨2, ![N, C]⟩ ![] hb (constant (F := Ideal) ⟨0, ![]⟩ .f32 0x00000000#32)) idx U
      = segSum idx U := by
  subst hsc
  funext i
  obtain ⟨b, k, rfl⟩ : ∃ (b : Fin N) (k : Fin C), i = ix2 b k := ⟨i 0, i 1, eq_ix2 i⟩
  refine (scatterAdd_rows_apply wf _ idx U b k).trans ?_
  rw [broadcastInDim_scalar_apply]
  show Ideal.ofBits .f32 0x00000000#32 + _ = _
  rw [Ideal.ofBits_zero_f32, zero_add]
  rfl

/-- The product with a vector broadcast to a column and then along the rows scales every row by its entry. -/
theorem scale_eq
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (d : FVec Ideal ⟨1, ![N]⟩ .f32) (X : FVec Ideal ⟨2, ![N, C]⟩ .f32) :
    mulf X (broadcastInDim ⟨2, ![N, C]⟩ ![0, 1] h2 (broadcastInDim ⟨2, ![N, 1]⟩ ![0] h1 d)) = scaleRows d X := by
  funext i
  obtain ⟨p, q, rfl⟩ : ∃ (p : Fin N) (q : Fin C), i = ix2 p q := ⟨i 0, i 1, eq_ix2 i⟩
  show X (ix2 p q) * broadcastInDim ⟨2, ![N, C]⟩ ![0, 1] h2 (broadcastInDim ⟨2, ![N, 1]⟩ ![0] h1 d) (ix2 p q)
    = X (ix2 p q) * d (ix1 p)
  rw [broadcastInDim_col_apply, broadcastInDim_vecCol_apply]

/-- The whole aggregation: rows taken, added into a zero table, scaled. -/
theorem meanAgg_eq (hN : 0 < N)
    (wfg : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wfg)
    (wfs : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wfs)
    (hb : (⟨0, ![]⟩ : Shape).BroadcastsInDim ⟨2, ![N, C]⟩ (![] : Fin 0 → Fin 2))
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (X : FVec Ideal ⟨2, ![N, C]⟩ .f32) (s t : ICol R) (d : FVec Ideal ⟨1, ![N]⟩ .f32) :
    mulf (Host.scatterAdd (F := Ideal) sc
        (broadcastInDim ⟨2, ![N, C]⟩ ![] hb (constant (F := Ideal) ⟨0, ![]⟩ .f32 0x00000000#32)) t (Host.gather g X s))
      (broadcastInDim ⟨2, ![N, C]⟩ ![0, 1] h2 (broadcastInDim ⟨2, ![N, 1]⟩ ![0] h1 d))
      = meanAgg hN s t d X := by
  rw [gather_eq_takeRows hN wfg g hg, scatter_eq_segSum wfs sc hsc, scale_eq]
  rfl

/-- Two products, the bias row added to the first: the second layer's arrangement. -/
theorem post_eq (D : DotDims ⟨2, ![N, K]⟩ ⟨2, ![K, C]⟩ ⟨2, ![N, C]⟩) (hD : D = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (A X : FVec Ideal ⟨2, ![N, K]⟩ .f32) (Wl Wr : FVec Ideal ⟨2, ![K, C]⟩ .f32) (b : FVec Ideal ⟨1, ![C]⟩ .f32) :
    addf (addf (Host.dotGeneral D none A Wl)
        (broadcastInDim ⟨2, ![N, C]⟩ ![0, 1] h2 (broadcastInDim ⟨2, ![1, C]⟩ ![1] h1 b))) (Host.dotGeneral D none X Wr)
      = plus (plus (mm A Wl) (vrows b)) (mm X Wr) := by
  rw [dotGeneral_eq_mm D hD, dotGeneral_eq_mm D hD, broadcastInDim_eq_rows]
  rfl

/-- The same with the bias added last: the first layer before normalisation. -/
theorem layer1_eq (D : DotDims ⟨2, ![N, K]⟩ ⟨2, ![K, C]⟩ ⟨2, ![N, C]⟩) (hD : D = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (A X : FVec Ideal ⟨2, ![N, K]⟩ .f32) (Wl Wr : FVec Ideal ⟨2, ![K, C]⟩ .f32) (b : FVec Ideal ⟨1, ![C]⟩ .f32) :
    addf (addf (Host.dotGeneral D none A Wl)
        (broadcastInDim ⟨2, ![N, C]⟩ ![0, 1] h2 (broadcastInDim ⟨2, ![1, C]⟩ ![1] h1 b))) (Host.dotGeneral D none X Wr)
      = layer1 A X Wl Wr b := by
  rw [post_eq D hD]
  funext i
  show mm A Wl i + vrows b i + mm X Wr i = mm A Wl i + mm X Wr i + vrows b i
  exact add_right_comm _ _ _

/-- The source index over column `q` with coordinate `k` on the summed axis is `(k, q)`. -/
theorem lift_col (h : (⟨2, ![N, C]⟩ : Shape).Reduces [(0 : Fin 2)] ⟨1, ![C]⟩) (q : Fin C) (k : Fin N) :
    h.lift (ix1 q) k = ix2 k q :=
  funext fun c => Fin.ext (by match c with | ⟨0, _⟩ => rfl | ⟨1, _⟩ => rfl)

/-- A sum down the columns from a zero initial value, divided by a broadcast constant, is the column mean. -/
theorem colMean_eq
    (h' : (⟨2, ![N, C]⟩ : Shape).ReducesTo [(0 : Fin 2)] ⟨1, ![C]⟩)
    (h : (⟨2, ![N, C]⟩ : Shape).Reduces [(0 : Fin 2)] ⟨1, ![C]⟩)
    (hu : 0 < (⟨0, ![]⟩ : Shape).numel)
    (hb : (⟨0, ![]⟩ : Shape).BroadcastsInDim ⟨1, ![C]⟩ (![] : Fin 0 → Fin 1))
    (w : BitVec 32) (X : FVec Ideal ⟨2, ![N, C]⟩ .f32) :
    Host.divf (F := Ideal) (Host.reduceAdd (F := Ideal) X (constant (F := Ideal) ⟨0, ![]⟩ .f32 0x00000000#32) h' hu)
        (broadcastInDim ⟨1, ![C]⟩ ![] hb (constant (F := Ideal) ⟨0, ![]⟩ .f32 w))
      = colMean (Ideal.ofBits .f32 w) X := by
  funext j
  obtain ⟨q, rfl⟩ : ∃ q : Fin C, j = ix1 q := ⟨j 0, eq_ix1 j⟩
  show Ideal.div (Ideal.hostReduceAdd h' X (Ideal.ofBits .f32 0x00000000#32) (ix1 q))
      (broadcastInDim ⟨1, ![C]⟩ ![] hb (constant (F := Ideal) ⟨0, ![]⟩ .f32 w) (ix1 q))
    = Ideal.div (0 + ∑ n : Fin N, X (ix2 n q)) (Ideal.ofBits .f32 w)
  rw [Ideal.hostReduceAdd_single h' h, broadcastInDim_scalar_apply, Ideal.ofBits_zero_f32]
  exact congrArg (fun t => Ideal.div (0 + t) (Ideal.ofBits .f32 w))
    (Finset.sum_congr rfl fun k _ => congrArg X (lift_col h q k))

/-- The squared deviation from a vector laid along every row. -/
theorem sqDev_eq
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (H : FVec Ideal ⟨2, ![N, C]⟩ .f32) (mu : FVec Ideal ⟨1, ![C]⟩ .f32) :
    mulf (subf H (broadcastInDim ⟨2, ![N, C]⟩ ![0, 1] h2 (broadcastInDim ⟨2, ![1, C]⟩ ![1] h1 mu)))
        (subf H (broadcastInDim ⟨2, ![N, C]⟩ ![0, 1] h2 (broadcastInDim ⟨2, ![1, C]⟩ ![1] h1 mu)))
      = sqDev H mu := by
  rw [broadcastInDim_eq_rows]
  funext i
  obtain ⟨p, q, rfl⟩ : ∃ (p : Fin N) (q : Fin C), i = ix2 p q := ⟨i 0, i 1, eq_ix2 i⟩
  rfl

/-- Centred, scaled by the reciprocal root of the variance plus a broadcast constant and by `gamma`, shifted by
    `beta`, cut at zero. -/
theorem bn_eq
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (hb : (⟨0, ![]⟩ : Shape).BroadcastsInDim ⟨1, ![C]⟩ (![] : Fin 0 → Fin 1))
    (hz : (⟨0, ![]⟩ : Shape).BroadcastsInDim ⟨2, ![N, C]⟩ (![] : Fin 0 → Fin 2))
    (w : BitVec 32) (H : FVec Ideal ⟨2, ![N, C]⟩ .f32) (mu var gamma beta : FVec Ideal ⟨1, ![C]⟩ .f32) :
    maximumf
        (addf
          (mulf
            (mulf (subf H (broadcastInDim ⟨2, ![N, C]⟩ ![0, 1] h2 (broadcastInDim ⟨2, ![1, C]⟩ ![1] h1 mu)))
              (broadcastInDim ⟨2, ![N, C]⟩ ![0, 1] h2 (broadcastInDim ⟨2, ![1, C]⟩ ![1] h1
                (Host.rsqrt (F := Ideal)
                  (addf var (broadcastInDim ⟨1, ![C]⟩ ![] hb (constant (F := Ideal) ⟨0, ![]⟩ .f32 w)))))))
            (broadcastInDim ⟨2, ![N, C]⟩ ![0, 1] h2 (broadcastInDim ⟨2, ![1, C]⟩ ![1] h1 gamma)))
          (broadcastInDim ⟨2, ![N, C]⟩ ![0, 1] h2 (broadcastInDim ⟨2, ![1, C]⟩ ![1] h1 beta)))
        (broadcastInDim ⟨2, ![N, C]⟩ ![] hz (constant (F := Ideal) ⟨0, ![]⟩ .f32 0x00000000#32))
      = bnRelu (Ideal.ofBits .f32 w) H mu var gamma beta := by
  rw [maximumf_bcast_zero, broadcastInDim_eq_rows, broadcastInDim_eq_rows, broadcastInDim_eq_rows,
    broadcastInDim_eq_rows]
  funext i
  obtain ⟨p, q, rfl⟩ : ∃ (p : Fin N) (q : Fin C), i = ix2 p q := ⟨i 0, i 1, eq_ix2 i⟩
  show max (((H (ix2 p q) - mu (ix1 q))
      * Ideal.rsqrt (var (ix1 q) + broadcastInDim ⟨1, ![C]⟩ ![] hb (constant (F := Ideal) ⟨0, ![]⟩ .f32 w) (ix1 q)))
      * gamma (ix1 q) + beta (ix1 q)) 0 = _
  rw [broadcastInDim_scalar_apply]
  rfl

end Host

/-! ## The reciprocal degree -/

section Degree

variable {N R : ℕ}

/-- From zero, the float word `w` once for every update row whose start index, read as a signed integer, is `i`:
    with `w` the word of one, the number of edges into node `i`. -/
def countAt (w : BitVec 32) (dst : ICol R) : Vc N :=
  fun i => 0 + ∑ _r ∈ Finset.univ.filter (fun r : Fin R => (dst (ix2 r (0 : Fin 1))).toInt = (((i 0 : Fin N)).val : ℤ)),
    Ideal.ofBits .f32 w

/-- Where the edge count exceeds zero, one over the larger of the count and one; elsewhere zero. -/
def recipDeg (dst : ICol R) : Vc N := fun i =>
  Scalar.select (Ideal.cmp .ogt (countAt (N := N) 0x3F800000#32 dst i) (Ideal.ofBits .f32 0x00000000#32))
    (Ideal.div (Ideal.ofBits .f32 0x3F800000#32)
      (max (countAt (N := N) 0x3F800000#32 dst i) (Ideal.ofBits .f32 0x3F800000#32)))
    (Ideal.ofBits .f32 0x00000000#32)

/-- A broadcast constant added into a broadcast-zero vector at a column of start indices counts, per entry, the
    update rows that land there. -/
theorem scatter_const_eq
    (wf : ScatterDims.WF ⟨1, ![N]⟩ ⟨2, ![R, 1]⟩ ⟨1, ![R]⟩ [] [0] [0] 1)
    (sc : ScatterDims ⟨1, ![N]⟩ ⟨2, ![R, 1]⟩ ⟨1, ![R]⟩) (hsc : sc = vecScatterDims N R wf)
    (hbN : (⟨0, ![]⟩ : Shape).BroadcastsInDim ⟨1, ![N]⟩ (![] : Fin 0 → Fin 1))
    (hbR : (⟨0, ![]⟩ : Shape).BroadcastsInDim ⟨1, ![R]⟩ (![] : Fin 0 → Fin 1))
    (w : BitVec 32) (dst : ICol R) :
    Host.scatterAdd (F := Ideal) sc
        (broadcastInDim ⟨1, ![N]⟩ ![] hbN (constant (F := Ideal) ⟨0, ![]⟩ .f32 0x00000000#32)) dst
        (broadcastInDim ⟨1, ![R]⟩ ![] hbR (constant (F := Ideal) ⟨0, ![]⟩ .f32 w))
      = countAt w dst := by
  subst hsc
  funext j
  obtain ⟨p, rfl⟩ : ∃ p : Fin N, j = ix1 p := ⟨j 0, eq_ix1 j⟩
  refine (scatterAdd_vec_apply wf _ dst _ p).trans ?_
  rw [broadcastInDim_scalar_apply]
  show Ideal.ofBits .f32 0x00000000#32 + _ = _
  rw [Ideal.ofBits_zero_f32]
  refine congrArg (fun t => (0 : EReal) + t) (Finset.sum_congr rfl fun r _ => ?_)
  exact broadcastInDim_scalar_apply hbR _ (ix1 r)

/-- The host's reciprocal degree: the count compared with zero selects one over the larger of the count and one,
    or zero. -/
theorem recipDeg_eq
    (wf : ScatterDims.WF ⟨1, ![N]⟩ ⟨2, ![R, 1]⟩ ⟨1, ![R]⟩ [] [0] [0] 1)
    (sc : ScatterDims ⟨1, ![N]⟩ ⟨2, ![R, 1]⟩ ⟨1, ![R]⟩) (hsc : sc = vecScatterDims N R wf)
    (hbN : (⟨0, ![]⟩ : Shape).BroadcastsInDim ⟨1, ![N]⟩ (![] : Fin 0 → Fin 1))
    (hbR : (⟨0, ![]⟩ : Shape).BroadcastsInDim ⟨1, ![R]⟩ (![] : Fin 0 → Fin 1))
    (dst : ICol R) :
    select
        (cmpf .ogt
          (Host.scatterAdd (F := Ideal) sc
            (broadcastInDim ⟨1, ![N]⟩ ![] hbN (constant (F := Ideal) ⟨0, ![]⟩ .f32 0x00000000#32)) dst
            (broadcastInDim ⟨1, ![R]⟩ ![] hbR (constant (F := Ideal) ⟨0, ![]⟩ .f32 0x3F800000#32)))
          (broadcastInDim ⟨1, ![N]⟩ ![] hbN (constant (F := Ideal) ⟨0, ![]⟩ .f32 0x00000000#32)))
        (Host.divf (F := Ideal)
          (broadcastInDim ⟨1, ![N]⟩ ![] hbN (constant (F := Ideal) ⟨0, ![]⟩ .f32 0x3F800000#32))
          (maximumf
            (Host.scatterAdd (F := Ideal) sc
              (broadcastInDim ⟨1, ![N]⟩ ![] hbN (constant (F := Ideal) ⟨0, ![]⟩ .f32 0x00000000#32)) dst
              (broadcastInDim ⟨1, ![R]⟩ ![] hbR (constant (F := Ideal) ⟨0, ![]⟩ .f32 0x3F800000#32)))
            (broadcastInDim ⟨1, ![N]⟩ ![] hbN (constant (F := Ideal) ⟨0, ![]⟩ .f32 0x3F800000#32))))
        (broadcastInDim ⟨1, ![N]⟩ ![] hbN (constant (F := Ideal) ⟨0, ![]⟩ .f32 0x00000000#32))
      = recipDeg dst := by
  rw [scatter_const_eq wf sc hsc hbN hbR]
  funext j
  obtain ⟨p, rfl⟩ : ∃ p : Fin N, j = ix1 p := ⟨j 0, eq_ix1 j⟩
  show Scalar.select
      (Ideal.cmp .ogt (countAt (N := N) 0x3F800000#32 dst (ix1 p))
        (broadcastInDim ⟨1, ![N]⟩ ![] hbN (constant (F := Ideal) ⟨0, ![]⟩ .f32 0x00000000#32) (ix1 p)))
      (Ideal.div (broadcastInDim ⟨1, ![N]⟩ ![] hbN (constant (F := Ideal) ⟨0, ![]⟩ .f32 0x3F800000#32) (ix1 p))
        (max (countAt (N := N) 0x3F800000#32 dst (ix1 p))
          (broadcastInDim ⟨1, ![N]⟩ ![] hbN (constant (F := Ideal) ⟨0, ![]⟩ .f32 0x3F800000#32) (ix1 p))))
      (broadcastInDim ⟨1, ![N]⟩ ![] hbN (constant (F := Ideal) ⟨0, ![]⟩ .f32 0x00000000#32) (ix1 p)) = _
  rw [broadcastInDim_scalar_apply, broadcastInDim_scalar_apply]
  rfl

/-- Every entry of the reciprocal degree is zero or one over the larger of that node's edge count and one. -/
theorem recipDeg_cases (dst : ICol R) (i : (⟨1, ![N]⟩ : Shape).Idx) :
    recipDeg (N := N) dst i = Ideal.ofBits .f32 0x00000000#32
      ∨ recipDeg (N := N) dst i = Ideal.div (Ideal.ofBits .f32 0x3F800000#32)
          (max (countAt (N := N) 0x3F800000#32 dst i) (Ideal.ofBits .f32 0x3F800000#32)) := by
  unfold recipDeg Scalar.select
  split
  · exact Or.inr rfl
  · exact Or.inl rfl

end Degree

end Cert.Sage

end
-- ==== Proof.LibNeighbourMean.lean ====
/-
  General lemmas: the mean of a node's in-neighbours' feature rows in a graph given as two columns of start indices (edge
  sources and edge destinations). Row `p` of the result is the sum of the source rows of the edges into `p`, divided by the
  larger of the number of those edges and one, so that a node with no in-edge gets the zero row. Two host spellings are read
  as this one function: one that adds the gathered rows and, separately, a vector of ones into zero tables; and one that
  appends a column of ones to the gathered rows, adds the widened rows into one zero table, and cuts the sums and the
  count out of it afterwards. Every dimension record and every shape side condition is an argument.
-/
import proofs.«133103_j50448685859138_2_alg».proof.Proof.LibSageHost

noncomputable section

namespace Cert.NeighbourMeanLib

open Idealize.ShloMosaic Idealize.ShloMosaic.ValueIdx Cert.DenseLib Cert.RowsLib Cert.ScatterLib Cert.LayoutLib Cert.Sage

variable {N C R : ℕ}

/-- The word of the float one. -/
abbrev oneW : BitVec 32 := 0x3F800000#32

/-- Entry `(p, q)`: the sum over the edges into `p` of column `q` of their source rows, divided by the larger of the number
    of edges into `p` and one. -/
def neighMean (hN : 0 < N) (src dst : ICol R) (X : Mat N C) : Mat N C :=
  fun i => Ideal.div (segSum dst (takeRows hN src X) i)
    (max (countAt (N := N) oneW dst (ix1 (i 0))) (Ideal.ofBits .f32 oneW))

/-- Row `p` of the mean depends on `p` alone among the node's own coordinates: read at `(p, q)`. -/
theorem neighMean_apply (hN : 0 < N) (src dst : ICol R) (X : Mat N C) (p : Fin N) (q : Fin C) :
    neighMean hN src dst X (ix2 p q) = Ideal.div (segSum dst (takeRows hN src X) (ix2 p q))
      (max (countAt (N := N) oneW dst (ix1 p)) (Ideal.ofBits .f32 oneW)) := rfl

/-- A quotient by a vector broadcast to a column and then along the rows divides every row by its entry of the vector. -/
theorem divf_rows_apply
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (Y : FVec Ideal ⟨2, ![N, C]⟩ .f32) (v : FVec Ideal ⟨1, ![N]⟩ .f32) (p : Fin N) (q : Fin C) :
    Host.divf (F := Ideal) Y (broadcastInDim ⟨2, ![N, C]⟩ ![0, 1] h2 (broadcastInDim ⟨2, ![N, 1]⟩ ![0] h1 v)) (ix2 p q)
      = Ideal.div (Y (ix2 p q)) (v (ix1 p)) := by
  show Ideal.div (Y (ix2 p q))
      (broadcastInDim ⟨2, ![N, C]⟩ ![0, 1] h2 (broadcastInDim ⟨2, ![N, 1]⟩ ![0] h1 v) (ix2 p q)) = _
  rw [broadcastInDim_col_apply, broadcastInDim_vecCol_apply]

/-- The maximum of a vector with a broadcast constant, read at an entry. -/
theorem maximumf_const_apply
    (hbN : (⟨0, ![]⟩ : Shape).BroadcastsInDim ⟨1, ![N]⟩ (![] : Fin 0 → Fin 1))
    (v : FVec Ideal ⟨1, ![N]⟩ .f32) (w : BitVec 32) (p : Fin N) :
    maximumf v (broadcastInDim ⟨1, ![N]⟩ ![] hbN (constant (F := Ideal) ⟨0, ![]⟩ .f32 w)) (ix1 p)
      = max (v (ix1 p)) (Ideal.ofBits .f32 w) := by
  show max (v (ix1 p)) (broadcastInDim ⟨1, ![N]⟩ ![] hbN (constant (F := Ideal) ⟨0, ![]⟩ .f32 w) (ix1 p)) = _
  rw [broadcastInDim_scalar_apply]
  rfl

/-- THE TWO-TABLE SPELLING: gathered rows added into a zero table, a vector of ones added into a zero vector, the
    first divided by the second's maximum with one broadcast to a column and along the rows. -/
theorem two_tables_eq (hN : 0 < N)
    (wfg : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wfg)
    (wfs : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wfs)
    (wfv : ScatterDims.WF ⟨1, ![N]⟩ ⟨2, ![R, 1]⟩ ⟨1, ![R]⟩ [] [0] [0] 1)
    (scv : ScatterDims ⟨1, ![N]⟩ ⟨2, ![R, 1]⟩ ⟨1, ![R]⟩) (hscv : scv = vecScatterDims N R wfv)
    (hb : (⟨0, ![]⟩ : Shape).BroadcastsInDim ⟨2, ![N, C]⟩ (![] : Fin 0 → Fin 2))
    (hbN : (⟨0, ![]⟩ : Shape).BroadcastsInDim ⟨1, ![N]⟩ (![] : Fin 0 → Fin 1))
    (hbR : (⟨0, ![]⟩ : Shape).BroadcastsInDim ⟨1, ![R]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (X : FVec Ideal ⟨2, ![N, C]⟩ .f32) (s d : ICol R) :
    Host.divf (F := Ideal)
        (Host.scatterAdd (F := Ideal) sc
          (broadcastInDim ⟨2, ![N, C]⟩ ![] hb (constant (F := Ideal) ⟨0, ![]⟩ .f32 0x00000000#32)) d (Host.gather g X s))
        (broadcastInDim ⟨2, ![N, C]⟩ ![0, 1] h2 (broadcastInDim ⟨2, ![N, 1]⟩ ![0] h1
          (maximumf
            (Host.scatterAdd (F := Ideal) scv
              (broadcastInDim ⟨1, ![N]⟩ ![] hbN (constant (F := Ideal) ⟨0, ![]⟩ .f32 0x00000000#32)) d
              (broadcastInDim ⟨1, ![R]⟩ ![] hbR (constant (F := Ideal) ⟨0, ![]⟩ .f32 oneW)))
            (broadcastInDim ⟨1, ![N]⟩ ![] hbN (constant (F := Ideal) ⟨0, ![]⟩ .f32 oneW)))))
      = neighMean hN s d X := by
  rw [gather_eq_takeRows hN wfg g hg, scatter_eq_segSum wfs sc hsc, scatter_const_eq wfv scv hscv hbN hbR]
  funext i
  obtain ⟨p, q, rfl⟩ : ∃ (p : Fin N) (q : Fin C), i = ix2 p q := ⟨i 0, i 1, eq_ix2 i⟩
  rw [divf_rows_apply, maximumf_const_apply]
  rfl

/-- Rows widened by a column of ones and summed per destination: left of the appended column the sums are the sums
    of the unwidened rows. -/
theorem segSum_widened_left {T : ℕ} (hT : T = C + 1) (d : ICol R) (U : Mat R C) (O : Mat R 1)
    (h : Shape.Concatenates [(⟨2, ![R, C]⟩ : Shape), ⟨2, ![R, 1]⟩] ⟨2, ![R, T]⟩ (1 : Fin 2))
    (p : Fin N) (q : Fin C) (q' : Fin T) (hq : q'.val = q.val) :
    segSum (N := N) d (concatenate ⟨2, ![R, T]⟩ (1 : Fin 2) [⟨⟨2, ![R, C]⟩, U⟩, ⟨⟨2, ![R, 1]⟩, O⟩] h) (ix2 p q')
      = segSum (N := N) d U (ix2 p q) :=
  Finset.sum_congr rfl fun r _ => concat_cols_left U O h r q q' hq

/-- In the appended column the sum counts the edges into the node, once the word of the ones for each. -/
theorem segSum_widened_last {T : ℕ} (hT : T = C + 1) (d : ICol R) (U : Mat R C) (w : BitVec 32)
    (hb1 : (⟨0, ![]⟩ : Shape).BroadcastsInDim ⟨2, ![R, 1]⟩ (![] : Fin 0 → Fin 2))
    (h : Shape.Concatenates [(⟨2, ![R, C]⟩ : Shape), ⟨2, ![R, 1]⟩] ⟨2, ![R, T]⟩ (1 : Fin 2))
    (p : Fin N) (q' : Fin T) (hq : q'.val = C) :
    segSum (N := N) d (concatenate ⟨2, ![R, T]⟩ (1 : Fin 2)
        [⟨⟨2, ![R, C]⟩, U⟩, ⟨⟨2, ![R, 1]⟩, broadcastInDim ⟨2, ![R, 1]⟩ ![] hb1 (constant (F := Ideal) ⟨0, ![]⟩ .f32 w)⟩] h) (ix2 p q')
      = countAt (N := N) w d (ix1 p) := by
  show _ = 0 + ∑ _r ∈ Finset.univ.filter (fun r : Fin R => (d (ix2 r (0 : Fin 1))).toInt = ((p : Fin N).val : ℤ)),
    Ideal.ofBits .f32 w
  rw [zero_add]
  refine Finset.sum_congr rfl fun r _ => ?_
  refine (concat_cols_right U _ h r (0 : Fin 1) q' (by rw [hq]; rfl)).trans ?_
  exact broadcastInDim_scalar_apply hb1 _ (ix2 r (0 : Fin 1))

/-- THE ONE-TABLE SPELLING: the gathered rows widened by a column of ones are added into ONE zero table of `C + 1`
    columns; its first `C` columns are the sums, its last column, recast as a vector, the count. -/
theorem one_table_eq {T : ℕ} (hT : T = C + 1) (hN : 0 < N)
    (wfg : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wfg)
    (wfs : ScatterDims.WF ⟨2, ![N, T]⟩ ⟨2, ![R, 1]⟩ ⟨2, ![R, T]⟩ [1] [0] [0] 1)
    (sc : ScatterDims ⟨2, ![N, T]⟩ ⟨2, ![R, 1]⟩ ⟨2, ![R, T]⟩) (hsc : sc = rowScatterDims N T R wfs)
    (hcat : Shape.Concatenates [(⟨2, ![R, C]⟩ : Shape), ⟨2, ![R, 1]⟩] ⟨2, ![R, T]⟩ (1 : Fin 2))
    (hb : (⟨0, ![]⟩ : Shape).BroadcastsInDim ⟨2, ![N, T]⟩ (![] : Fin 0 → Fin 2))
    (hb1 : (⟨0, ![]⟩ : Shape).BroadcastsInDim ⟨2, ![R, 1]⟩ (![] : Fin 0 → Fin 2))
    (hbN : (⟨0, ![]⟩ : Shape).BroadcastsInDim ⟨1, ![N]⟩ (![] : Fin 0 → Fin 1))
    (hs1 : (⟨2, ![N, T]⟩ : Shape).Slices ![0, 0] ⟨2, ![N, C]⟩)
    (hs2 : (⟨2, ![N, T]⟩ : Shape).Slices ![0, C] ⟨2, ![N, 1]⟩)
    (hc : (⟨2, ![N, 1]⟩ : Shape).ShapeCasts ⟨1, ![N]⟩)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (X : FVec Ideal ⟨2, ![N, C]⟩ .f32) (s d : ICol R) :
    Host.divf (F := Ideal)
        (extractStridedSlice ⟨2, ![N, C]⟩ ![0, 0]
          (Host.scatterAdd (F := Ideal) sc
            (broadcastInDim ⟨2, ![N, T]⟩ ![] hb (constant (F := Ideal) ⟨0, ![]⟩ .f32 0x00000000#32)) d
            (concatenate ⟨2, ![R, T]⟩ (1 : Fin 2) [⟨⟨2, ![R, C]⟩, Host.gather g X s⟩,
              ⟨⟨2, ![R, 1]⟩, broadcastInDim ⟨2, ![R, 1]⟩ ![] hb1 (constant (F := Ideal) ⟨0, ![]⟩ .f32 oneW)⟩] hcat)) hs1)
        (broadcastInDim ⟨2, ![N, C]⟩ ![0, 1] h2 (broadcastInDim ⟨2, ![N, 1]⟩ ![0] h1
          (maximumf
            (shapeCast ⟨1, ![N]⟩ (extractStridedSlice ⟨2, ![N, 1]⟩ ![0, C]
              (Host.scatterAdd (F := Ideal) sc
                (broadcastInDim ⟨2, ![N, T]⟩ ![] hb (constant (F := Ideal) ⟨0, ![]⟩ .f32 0x00000000#32)) d
                (concatenate ⟨2, ![R, T]⟩ (1 : Fin 2) [⟨⟨2, ![R, C]⟩, Host.gather g X s⟩,
                  ⟨⟨2, ![R, 1]⟩, broadcastInDim ⟨2, ![R, 1]⟩ ![] hb1 (constant (F := Ideal) ⟨0, ![]⟩ .f32 oneW)⟩] hcat)) hs2) hc)
            (broadcastInDim ⟨1, ![N]⟩ ![] hbN (constant (F := Ideal) ⟨0, ![]⟩ .f32 oneW)))))
      = neighMean hN s d X := by
  rw [gather_eq_takeRows hN wfg g hg, scatter_eq_segSum wfs sc hsc]
  funext i
  obtain ⟨p, q, rfl⟩ : ∃ (p : Fin N) (q : Fin C), i = ix2 p q := ⟨i 0, i 1, eq_ix2 i⟩
  have hqT : q.val < T := by have := q.isLt; omega
  have hCT : C < T := by omega
  rw [neighMean_apply, divf_rows_apply, maximumf_const_apply, shapeCast_colvec_apply,
    extractStridedSlice_apply ![0, 0] _ hs1 (ix2 p q) (ix2 p (⟨q.val, hqT⟩ : Fin T)) (fun a => by
      match a with
      | ⟨0, _⟩ => show p.val = 0 + p.val; omega
      | ⟨1, _⟩ => show q.val = 0 + q.val; omega),
    extractStridedSlice_apply ![0, C] _ hs2 (ix2 p (0 : Fin 1)) (ix2 p (⟨C, hCT⟩ : Fin T)) (fun a => by
      match a with
      | ⟨0, _⟩ => show p.val = 0 + p.val; omega
      | ⟨1, _⟩ => show C = C + 0; omega),
    segSum_widened_left hT d _ _ hcat p q ⟨q.val, hqT⟩ rfl,
    segSum_widened_last hT d _ oneW hb1 hcat p ⟨C, hCT⟩ rfl]

end Cert.NeighbourMeanLib

end
-- ==== Proof.MeanLayer.lean ====
/-
  One layer of a graph network with mean aggregation, as ONE function of whole arrays over the extended reals: every node's
  own feature row and the mean of its in-neighbours' feature rows go through the upper and the lower rows of a first weight
  matrix, a bias, a second weight matrix and bias, and the cut at zero,
  `out = max (((X · U + mean(X) · L) + b₁) · W₂ + b₂) 0`.
  The edges are two vectors of node numbers; a negative source number is first raised by the number of nodes, and each vector
  is then read as a column of start indices.
-/
import proofs.«133103_j50448685859138_2_alg».proof.Proof.LibNeighbourMean
import proofs.«133103_j50448685859138_2_alg».proof.Proof.LibSplitNet

noncomputable section

namespace Cert.MeanLayer

open Idealize.ShloMosaic Idealize.ShloMosaic.ValueIdx Cert.Sage Cert.NeighbourMeanLib Cert.SplitNetLib

variable {N R A H O T : ℕ}

/-- A vector of 32-bit node numbers as a column of start indices, a negative number first raised by `n`. -/
abbrev wrapCol (hb : (⟨0, ![]⟩ : Shape).BroadcastsInDim ⟨1, ![R]⟩ (![] : Fin 0 → Fin 1))
    (hc : (⟨1, ![R]⟩ : Shape).BroadcastsInDim ⟨2, ![R, 1]⟩ (![0] : Fin 1 → Fin 2)) (n : BitVec 32)
    (v : IVec ⟨1, ![R]⟩ 32) : ICol R :=
  broadcastInDim ⟨2, ![R, 1]⟩ ![0] hc
    (select (cmpi .slt v (broadcastInDim ⟨1, ![R]⟩ ![] hb (constantI ⟨0, ![]⟩ 32 0#32)))
      (addi v (broadcastInDim ⟨1, ![R]⟩ ![] hb (constantI ⟨0, ![]⟩ 32 n))) v)

/-- A vector of 32-bit node numbers as a column of start indices, unchanged. -/
abbrev col (hc : (⟨1, ![R]⟩ : Shape).BroadcastsInDim ⟨2, ![R, 1]⟩ (![0] : Fin 1 → Fin 2)) (v : IVec ⟨1, ![R]⟩ 32) : ICol R :=
  broadcastInDim ⟨2, ![R, 1]⟩ ![0] hc v

/-- The layer's result: the network on the nodes' own features and their neighbour means, the first weight matrix cut
    into its upper `A` rows and the `A` rows below them. -/
def layerOut (hN : 0 < N) (hsU : (⟨2, ![T, H]⟩ : Shape).Slices ![0, 0] ⟨2, ![A, H]⟩)
    (hsL : (⟨2, ![T, H]⟩ : Shape).Slices ![A, 0] ⟨2, ![A, H]⟩) (s d : ICol R) (X : Arr N A) (W₁ : Arr T H) (b₁ : Vc H)
    (W₂ : Arr H O) (b₂ : Vc O) : Arr N O :=
  net X (neighMean hN s d X) (extractStridedSlice ⟨2, ![A, H]⟩ ![0, 0] W₁ hsU)
    (extractStridedSlice ⟨2, ![A, H]⟩ ![A, 0] W₁ hsL) (fun c => b₁ (ix1 c)) W₂ (fun c => b₂ (ix1 c))

/-- The same result when the own features and the neighbour means are first laid side by side (`Z`) and multiplied by the
    whole first weight matrix: the sum over the joined columns splits at the seam. -/
theorem netJoined_eq_layerOut (hT : T = A + A) (hN : 0 < N)
    (hsU : (⟨2, ![T, H]⟩ : Shape).Slices ![0, 0] ⟨2, ![A, H]⟩) (hsL : (⟨2, ![T, H]⟩ : Shape).Slices ![A, 0] ⟨2, ![A, H]⟩)
    (hcat : Shape.Concatenates [(⟨2, ![N, A]⟩ : Shape), ⟨2, ![N, A]⟩] ⟨2, ![N, T]⟩ (1 : Fin 2))
    (s d : ICol R) (X : Arr N A) (W₁ : Arr T H) (b₁ : Vc H) (W₂ : Arr H O) (b₂ : Vc O) :
    netJoined (concatenate ⟨2, ![N, T]⟩ (1 : Fin 2) [⟨⟨2, ![N, A]⟩, X⟩, ⟨⟨2, ![N, A]⟩, neighMean hN s d X⟩] hcat) W₁
        (fun c => b₁ (ix1 c)) W₂ (fun c => b₂ (ix1 c))
      = layerOut hN hsU hsL s d X W₁ b₁ W₂ b₂ := by
  unfold netJoined layerOut net mix
  rw [netJoined_eq_net hT X (neighMean hN s d X) _ W₁ (extractStridedSlice ⟨2, ![A, H]⟩ ![0, 0] W₁ hsU)
    (extractStridedSlice ⟨2, ![A, H]⟩ ![A, 0] W₁ hsL) (fun c => b₁ (ix1 c)) W₂ (fun c => b₂ (ix1 c))
    (fun p k k' hk => Cert.RowsLib.concat_cols_left X _ hcat p k k' hk)
    (fun p k k' hk => Cert.RowsLib.concat_cols_right X _ hcat p k k' hk)
    (fun q k k' hk => (extractStridedSlice_apply ![0, 0] W₁ hsU (ix2 k q) (ix2 k' q) (fun a => by
      match a with
      | ⟨0, _⟩ => show k'.val = 0 + k.val; omega
      | ⟨1, _⟩ => show q.val = 0 + q.val; omega)).symm)
    (fun q k k' hk => (extractStridedSlice_apply ![A, 0] W₁ hsL (ix2 k q) (ix2 k' q) (fun a => by
      match a with
      | ⟨0, _⟩ => show k'.val = A + k.val; omega
      | ⟨1, _⟩ => show q.val = 0 + q.val; omega)).symm)]

/-! ## The sizes at hand: 50000 nodes, 128 features, a 256-row first weight matrix -/

/-- There is at least one node. -/
theorem nodes_pos : 0 < 50000 := by decide
/-- The upper 128 rows of a 256-row matrix are a unit-stride cut of it. -/
theorem upper_rows : (⟨2, ![256, 256]⟩ : Shape).Slices ![0, 0] ⟨2, ![128, 256]⟩ := by decide
/-- So are the 128 rows below them. -/
theorem lower_rows : (⟨2, ![256, 256]⟩ : Shape).Slices ![128, 0] ⟨2, ![128, 256]⟩ := by decide

end Cert.MeanLayer

end
-- ==== Proof.KernelHost.lean ====
/-
  What the kernel's region finds in the arrays the host operations before it have written, as functions of the program's
  arguments: the neighbour means (the one-table spelling: a column of ones appended to the gathered rows, one accumulation,
  the sums and the count cut out of the table), the upper and the lower rows of the first weight matrix, and the two biases
  recast as one-row arrays.
-/
import proofs.«133103_j50448685859138_2_alg».proof.Proof.Gen.KernelIdeal.Frame
import proofs.«133103_j50448685859138_2_alg».proof.Proof.MeanLayer
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx Cert.Sage Cert.RowsLib Cert.ScatterLib Cert.NeighbourMeanLib Cert.MeanLayer

variable (m : (ℓ : Loc nD τ sig) → Buf (Elt Ideal) ℓ) (c : Dev nD)

set_option maxHeartbeats 4000000 in
/-- The second input window's array holds the neighbour means of the feature rows. -/
theorem means_eq : (V m c main_v19 : S50000x128.Idx → EReal)
    = neighMean (N := 50000) (C := 128) nodes_pos
        (wrapCol bcast_S_S600000 bcast_S600000_S600000x1_0 50000#32 (m ((c : Thread nD τ).loc main_arg1)))
        (col bcast_S600000_S600000x1_0 (m ((c : Thread nD τ).loc main_arg2))) (m ((c : Thread nD τ).loc main_arg0)) := by
  dsimp only [Gen.V, Gen.hostOps0]
  after_results
  exact one_table_eq (N := 50000) (C := 128) (R := 600000) (T := 129) rfl nodes_pos
    gather_S50000x128_S600000x1_S600000x128_1_0_n_n_0_1_1128_wf gather_S50000x128_S600000x1_S600000x128_1_0_n_n_0_1_1128 rfl
    scatter_S50000x129_S600000x1_S600000x129_1_0_0_1_wf scatter_S50000x129_S600000x1_S600000x129_1_0_0_1 rfl
    concatenates_S600000x128_S600000x1_S600000x129_d1 bcast_S_S50000x129 bcast_S_S600000x1 bcast_S_S50000
    slices_S50000x129_S50000x128_0_0 slices_S50000x129_S50000x1_0_128 shapeCasts_S50000x1_S50000
    bcast_S50000_S50000x1_0 bcast_S50000x1_S50000x128_0_1 _ _ _

/-- The third input window's array holds the upper 128 rows of the first weight matrix. -/
theorem upper_eq : (V m c main_v20 : S128x256.Idx → EReal)
    = extractStridedSlice ⟨2, ![128, 256]⟩ ![0, 0] (m ((c : Thread nD τ).loc main_arg3)) upper_rows := by
  dsimp only [Gen.V, Gen.hostOps0]
  after_results

/-- The fourth holds the 128 rows below them. -/
theorem lower_eq : (V m c main_v21 : S128x256.Idx → EReal)
    = extractStridedSlice ⟨2, ![128, 256]⟩ ![128, 0] (m ((c : Thread nD τ).loc main_arg3)) lower_rows := by
  dsimp only [Gen.V, Gen.hostOps0]
  after_results

/-- The fifth holds the first bias as one row. -/
theorem bias1_eq : (V m c main_v22 : S1x256.Idx → EReal)
    = shapeCast S1x256 (m ((c : Thread nD τ).loc main_arg4)) shapeCasts_S256_S1x256 := by
  dsimp only [Gen.V, Gen.hostOps0]
  after_results
  rfl

/-- The seventh holds the second bias as one row. -/
theorem bias2_eq : (V m c main_v23 : S1x128.Idx → EReal)
    = shapeCast S1x128 (m ((c : Thread nD τ).loc main_arg6)) shapeCasts_S128_S1x128 := by
  dsimp only [Gen.V, Gen.hostOps0]
  after_results
  rfl

end Cert.KernelIdeal.HostValue

end
-- ==== Proof.KernelValue.lean ====
/-
  The kernel's result array as the layer's one function of the arguments. The grid has ten points; point `t` reads rows
  `5000 t … 5000 t + 4999` of the own features and of the neighbour means and the whole of the five small arrays, and writes
  rows `5000 t … 5000 t + 4999` of the result. A row of the network's result depends on the same row of the two feature
  arrays alone, so what point `t` writes is block `t` of the layer's function of the whole arrays; the ten blocks tile the
  50000 rows (row `r` lies in block `r / 5000`), so the array ends holding that function.
-/
import proofs.«133103_j50448685859138_2_alg».proof.Proof.Gen.KernelIdeal.Value
import proofs.«133103_j50448685859138_2_alg».proof.Proof.KernelBody
import proofs.«133103_j50448685859138_2_alg».proof.Proof.KernelHost

set_option maxRecDepth 16384

noncomputable section

namespace Cert.KernelIdeal.LayerValue

open Cert.KernelIdeal Cert.KernelIdeal.Gen Idealize.ShloMosaic Idealize.ShloMosaic.TcCoe Idealize.SL.Sem
open Idealize.ShloMosaic.Pipeline (Dat)
open Idealize.ShloMosaic.ValueIdx Cert.Sage Cert.NeighbourMeanLib Cert.SplitNetLib Cert.MeanLayer Cert.RowBlocks

variable (m : (ℓ : Loc nD τ sig) → Buf (Elt Ideal) ℓ) (ρ : Dev nD → PrngReg)

/-- The layer's function of the program's arguments on core `c`. -/
abbrev result (c : Dev nD) : S50000x128.Idx → EReal :=
  layerOut (N := 50000) (A := 128) (H := 256) (O := 128) (T := 256) nodes_pos upper_rows lower_rows
    (wrapCol bcast_S_S600000 bcast_S600000_S600000x1_0 50000#32 (m ((c : Thread nD τ).loc main_arg1)))
    (col bcast_S600000_S600000x1_0 (m ((c : Thread nD τ).loc main_arg2)))
    (m ((c : Thread nD τ).loc main_arg0)) (m ((c : Thread nD τ).loc main_arg3)) (m ((c : Thread nD τ).loc main_arg4))
    (m ((c : Thread nD τ).loc main_arg5)) (m ((c : Thread nD τ).loc main_arg6))

theorem origin : (![0, 0] : Fin 2 → Nat) = fun _ => 0 := funext fun a => by fin_cases a <;> rfl

/-- The printed index maps over the grid: the two feature windows and the output window sit at block row `t`, the five
    small windows at the one block they have. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A window with one block reads its whole array. -/
theorem whole2 (c : Dev nD) (t : Fin cfg0.N) : iblk m c 2 t = V m c main_v20 := by
  obtain ⟨-, -, -, -, e0, e1, -⟩ := index_maps t
  funext y
  show V m c main_v20 (((cfg0.win 2).blk t).view.emb y) = V m c main_v20 y
  refine congrArg (V m c main_v20) (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem whole3 (c : Dev nD) (t : Fin cfg0.N) : iblk m c 3 t = V m c main_v21 := by
  obtain ⟨-, -, -, -, -, -, e0, e1, -⟩ := index_maps t
  funext y
  show V m c main_v21 (((cfg0.win 3).blk t).view.emb y) = V m c main_v21 y
  refine congrArg (V m c main_v21) (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

theorem whole4 (c : Dev nD) (t : Fin cfg0.N) : iblk m c 4 t = V m c main_v22 := by
  obtain ⟨-, -, -, -, -, -, -, -, e0, e1, -⟩ := index_maps t
  funext y
  show V m c main_v22 (((cfg0.win 4).blk t).view.emb y) = V m c main_v22 y
  refine congrArg (V m c main_v22) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem whole5 (c : Dev nD) (t : Fin cfg0.N) : iblk m c 5 t = V m c main_arg5 := by
  obtain ⟨-, -, -, -, -, -, -, -, -, -, e0, e1, -⟩ := index_maps t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

theorem whole6 (c : Dev nD) (t : Fin cfg0.N) : iblk m c 6 t = V m c main_v23 := by
  obtain ⟨-, -, -, -, -, -, -, -, -, -, -, -, e0, e1, -⟩ := index_maps t
  funext y
  show V m c main_v23 (((cfg0.win 6).blk t).view.emb y) = V m c main_v23 y
  refine congrArg (V m c main_v23) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Row `p` of a feature window's block at point `t` is the row of its array under row `p` of the output block. -/
theorem row0 (c : Dev nD) (t : Fin cfg0.N) (j : S5000x128.Idx) (k : Fin 128) :
    iblk m c 0 t (ix2 (n0 := 5000) (j 0) k)
      = V m c main_arg0 (ix2 (n0 := 50000) ((((cfg0.win 7).blk t).view.emb j) 0) k) := by
  obtain ⟨a0, a1, -, -, -, -, -, -, -, -, -, -, -, -, o0, o1⟩ := index_maps t
  show V m c main_arg0 (((cfg0.win 0).blk t).view.emb (ix2 (n0 := 5000) (j 0) k)) = _
  refine congrArg (V m c main_arg0) (funext fun a => Fin.ext ?_)
  match a with
  | ⟨0, _⟩ => show win0_0.index t (0 : Fin 2) * 5000 + 1 * (j 0).val = win0_7.index t (0 : Fin 2) * 5000 + 1 * (j 0).val; omega
  | ⟨1, _⟩ => show win0_0.index t (1 : Fin 2) * 128 + 1 * k.val = k.val; omega

theorem row1 (c : Dev nD) (t : Fin cfg0.N) (j : S5000x128.Idx) (k : Fin 128) :
    iblk m c 1 t (ix2 (n0 := 5000) (j 0) k)
      = V m c main_v19 (ix2 (n0 := 50000) ((((cfg0.win 7).blk t).view.emb j) 0) k) := by
  obtain ⟨-, -, a0, a1, -, -, -, -, -, -, -, -, -, -, o0, o1⟩ := index_maps t
  show V m c main_v19 (((cfg0.win 1).blk t).view.emb (ix2 (n0 := 5000) (j 0) k)) = _
  refine congrArg (V m c main_v19) (funext fun a => Fin.ext ?_)
  match a with
  | ⟨0, _⟩ => show win0_1.index t (0 : Fin 2) * 5000 + 1 * (j 0).val = win0_7.index t (0 : Fin 2) * 5000 + 1 * (j 0).val; omega
  | ⟨1, _⟩ => show win0_1.index t (1 : Fin 2) * 128 + 1 * k.val = k.val; omega

/-- The output block's columns are the array's columns. -/
theorem col7 (t : Fin cfg0.N) (j : S5000x128.Idx) : (j 1).val = ((((cfg0.win 7).blk t).view.emb j) 1).val := by
  obtain ⟨-, -, -, -, -, -, -, -, -, -, -, -, -, -, o0, o1⟩ := index_maps t
  show (j 1).val = win0_7.index t (1 : Fin 2) * 128 + 1 * (j 1).val
  omega

/-- WHAT POINT `t` WRITES BACK is block `t` of the layer's function of the whole arrays. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero origin]
  simp only [View.ld_unit_zero (S := S5000x128) origin, View.ld_unit_zero (S := S128x256) origin,
    View.ld_unit_zero (S := S1x256) origin, View.ld_unit_zero (S := S256x128) origin, View.ld_unit_zero (S := S1x128) origin]
  funext j
  show k0_pay1 (iblk m c 0 t) (iblk m c 1 t) (iblk m c 2 t) (iblk m c 3 t) (iblk m c 4 t) (iblk m c 5 t) (iblk m c 6 t) j
    = result m c (((cfg0.win 7).blk t).view.emb j)
  refine (congrFun (Body.pay_eq (iblk m c 0 t) (iblk m c 1 t) (iblk m c 2 t) (iblk m c 3 t) (iblk m c 4 t) (iblk m c 5 t)
    (iblk m c 6 t)) j).trans ?_
  refine net_eq_of_row (M' := 5000) (M := 50000) (A := 128) (H := 256) (O := 128)
    (iblk m c 0 t) (iblk m c 1 t) (iblk m c 2 t) (iblk m c 3 t) (fun q => iblk m c 4 t (ix2 (0 : Fin 1) q)) (iblk m c 5 t)
    (fun q => iblk m c 6 t (ix2 (0 : Fin 1) q))
    (m ((c : Thread nD τ).loc main_arg0)) _ _ _ _ (m ((c : Thread nD τ).loc main_arg5)) _
    j (((cfg0.win 7).blk t).view.emb j) ?_ ?_ ?_ ?_ ?_ (col7 t j) ?_ ?_
  · rw [whole2, HostValue.upper_eq]
  · rw [whole3, HostValue.lower_eq]
  · funext q
    rw [whole4, HostValue.bias1_eq]
    exact shapeCast_vecRow_apply _ _ (0 : Fin 1) q
  · rw [whole5, V_main_arg5]
  · funext q
    rw [whole6, HostValue.bias2_eq]
    exact shapeCast_vecRow_apply _ _ (0 : Fin 1) q
  · intro k
    rw [row0, V_main_arg0]
  · intro k
    rw [row1, HostValue.means_eq]

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v24).slice (win0_7.rect t)).set ↔ _
  rw [View.set_slice_whole, Rect.mem_set_unit]
  exact Iff.rfl

/-- THE BLOCKS TILE THE ARRAY: row `r` lies in the block of point `r / 5000`. -/
theorem cover (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, -, -, -, -, -, -, o0, o1⟩ := index_maps ⟨(i 0).val / 5000, ht⟩
  refine ⟨⟨(i 0).val / 5000, ht⟩, flush0_7 _, ?_⟩
  rw [mem_blk]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    rw [o1]
    omega

/-- THE ARRAY after the run is the layer's function of the arguments. -/
theorem final (c : Dev nD) : (dats m 0 c).arrAt 7 cfg0.N = result m c :=
  (dats m 0 c).arrAt_eq_of_cover 7 (result m c) (fun t _ => flushed_eq m c t) cover

/-- The kernel's run re-posted: the result array at the layer's function of the arguments, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.LayerValue

end
-- ==== Proof.RefValue.lean ====
/-
  The reference program's result, read as the layer's one function of its seven arguments. The reference adds the gathered
  source rows into a zero table and a vector of ones into a zero vector (the sums and the edge counts), divides, lays the
  nodes' own features and the quotient side by side, and multiplies by the whole first weight matrix: its composed term is
  the two-table neighbour mean inside the network on joined inputs, which is the layer's function because the sum over the
  joined columns splits at the seam.
-/
import proofs.«133103_j50448685859138_2_alg».proof.Proof.Gen.ReferenceIdeal.Run
import proofs.«133103_j50448685859138_2_alg».proof.Proof.MeanLayer

noncomputable section

namespace Cert.ReferenceIdeal.RefValue

open Cert.ReferenceIdeal Cert.ReferenceIdeal.Gen Idealize.ShloMosaic Idealize.ShloMosaic.ValueIdx
open Cert.Sage Cert.RowsLib Cert.ScatterLib Cert.NeighbourMeanLib Cert.SplitNetLib Cert.MeanLayer

/-- The reference's quotient of the summed source rows by the edge counts is the neighbour mean. -/
theorem mean_eq (x0 : FVec Ideal S50000x128 .f32) (s d : ICol 600000) :
    Host.divf (Host.scatterAdd scatter_S50000x128_S600000x1_S600000x128_1_0_0_1 (broadcastInDim S50000x128 ![] bcast_S_S50000x128 (constant S_ .f32 0x00000000#32)) d (Host.gather gather_S50000x128_S600000x1_S600000x128_1_0_n_n_0_1_1128 x0 s)) (broadcastInDim S50000x128 ![0, 1] bcast_S50000x1_S50000x128_0_1 (broadcastInDim S50000x1 ![0] bcast_S50000_S50000x1_0 (maximumf (Host.scatterAdd scatter_S50000_S600000x1_S600000_n_0_0_1 (broadcastInDim S50000 ![] bcast_S_S50000 (constant S_ .f32 0x00000000#32)) d (broadcastInDim S600000 ![] bcast_S_S600000 (constant S_ .f32 0x3F800000#32))) (broadcastInDim S50000 ![] bcast_S_S50000 (constant S_ .f32 0x3F800000#32)))))
      = neighMean (N := 50000) (C := 128) nodes_pos s d x0 :=
  two_tables_eq (N := 50000) (C := 128) (R := 600000) nodes_pos
    gather_S50000x128_S600000x1_S600000x128_1_0_n_n_0_1_1128_wf gather_S50000x128_S600000x1_S600000x128_1_0_n_n_0_1_1128 rfl
    scatter_S50000x128_S600000x1_S600000x128_1_0_0_1_wf scatter_S50000x128_S600000x1_S600000x128_1_0_0_1 rfl
    scatter_S50000_S600000x1_S600000_n_0_0_1_wf scatter_S50000_S600000x1_S600000_n_0_0_1 rfl
    bcast_S_S50000x128 bcast_S_S50000 bcast_S_S600000 bcast_S50000_S50000x1_0 bcast_S50000x1_S50000x128_0_1 x0 s d

/-- THE REFERENCE'S RESULT is the layer's function of the arguments. -/
theorem result_eq (x0 : FVec Ideal S50000x128 .f32) (x1 x2 : IVec S600000 32) (x3 : FVec Ideal S256x256 .f32)
    (x4 : FVec Ideal S256 .f32) (x5 : FVec Ideal S256x128 .f32) (x6 : FVec Ideal S128 .f32) :
    maximumf (addf (Host.dotGeneral dot_S50000x256_S256x128_S50000x128_1_0_0_1_n_n none (addf (Host.dotGeneral dot_S50000x256_S256x256_S50000x256_1_0_0_1_n_n none (concatenate S50000x256 1 [⟨S50000x128, x0⟩, ⟨S50000x128, (Host.divf (Host.scatterAdd scatter_S50000x128_S600000x1_S600000x128_1_0_0_1 (broadcastInDim S50000x128 ![] bcast_S_S50000x128 (constant S_ .f32 0x00000000#32)) (broadcastInDim S600000x1 ![0] bcast_S600000_S600000x1_0 x2) (Host.gather gather_S50000x128_S600000x1_S600000x128_1_0_n_n_0_1_1128 x0 (broadcastInDim S600000x1 ![0] bcast_S600000_S600000x1_0 (select (cmpi .slt x1 (broadcastInDim S600000 ![] bcast_S_S600000 (constantI S_ 32 0#32))) (addi x1 (broadcastInDim S600000 ![] bcast_S_S600000 (constantI S_ 32 50000#32))) x1)))) (broadcastInDim S50000x128 ![0, 1] bcast_S50000x1_S50000x128_0_1 (broadcastInDim S50000x1 ![0] bcast_S50000_S50000x1_0 (maximumf (Host.scatterAdd scatter_S50000_S600000x1_S600000_n_0_0_1 (broadcastInDim S50000 ![] bcast_S_S50000 (constant S_ .f32 0x00000000#32)) (broadcastInDim S600000x1 ![0] bcast_S600000_S600000x1_0 x2) (broadcastInDim S600000 ![] bcast_S_S600000 (constant S_ .f32 0x3F800000#32))) (broadcastInDim S50000 ![] bcast_S_S50000 (constant S_ .f32 0x3F800000#32))))))⟩] concatenates_S50000x128_S50000x128_S50000x256_d1) x3) (broadcastInDim S50000x256 ![0, 1] bcast_S1x256_S50000x256_0_1 (broadcastInDim S1x256 ![1] bcast_S256_S1x256_1 x4))) x5) (broadcastInDim S50000x128 ![0, 1] bcast_S1x128_S50000x128_0_1 (broadcastInDim S1x128 ![1] bcast_S128_S1x128_1 x6))) (broadcastInDim S50000x128 ![] bcast_S_S50000x128 (constant S_ .f32 0x00000000#32))
      = layerOut (N := 50000) (A := 128) (H := 256) (O := 128) (T := 256) nodes_pos upper_rows lower_rows
          (wrapCol bcast_S_S600000 bcast_S600000_S600000x1_0 50000#32 x1) (col bcast_S600000_S600000x1_0 x2) x0 x3 x4 x5 x6 := by
  rw [mean_eq x0 (wrapCol bcast_S_S600000 bcast_S600000_S600000x1_0 50000#32 x1) (col bcast_S600000_S600000x1_0 x2)]
  refine (host_eq_netJoined (M := 50000) (T := 256) (H := 256) (O := 128)
    dot_S50000x256_S256x256_S50000x256_1_0_0_1_n_n rfl dot_S50000x256_S256x128_S50000x128_1_0_0_1_n_n rfl
    bcast_S256_S1x256_1 bcast_S1x256_S50000x256_0_1 bcast_S128_S1x128_1 bcast_S1x128_S50000x128_0_1 bcast_S_S50000x128
    _ x3 x4 x5 x6).trans ?_
  exact netJoined_eq_layerOut (T := 256) (A := 128) rfl nodes_pos upper_rows lower_rows
    concatenates_S50000x128_S50000x128_S50000x256_d1 _ _ x0 x3 x4 x5 x6

end Cert.ReferenceIdeal.RefValue

end
-- ==== Proof.lean ====
/-
  One layer of a graph network with mean aggregation on 50000 nodes with 128 features and 600000 edges: the kernel equals
  its reference over the extended reals.

  Both programs compute, for every node, the mean of its in-neighbours' feature rows (the sum of the source rows of the edges
  into the node divided by the larger of the number of those edges and one), and then
  `max (((h · U + mean · L) + b₁) · W₂ + b₂) 0`, where `U` and `L` are the upper and the lower 128 rows of the first weight
  matrix. They differ in two arrangements. The reference sums the source rows and, separately, a vector of ones; the kernel
  appends a column of ones to the gathered rows, sums once, and cuts the sums and the count out of one table: column by column
  these are the same finite sums. The reference lays `h` and the means side by side and multiplies by the whole first weight
  matrix; the kernel multiplies each by its half and adds: the sum over 256 joined columns splits at column 128, which needs
  only that addition of extended reals is commutative and associative, so the inputs' finiteness is never used. The kernel
  computes its result 5000 rows at a time over ten grid points; a row of the result depends on the same row of the two feature
  arrays alone, so the ten blocks are the blocks of one function of the whole arrays, and they tile the 50000 rows.

  The idealisation pass rewrote nothing, so the kernel's idealised program is its own text read over the extended reals.
-/
import proofs.«133103_j50448685859138_2_alg».proof.Defs
import proofs.«133103_j50448685859138_2_alg».proof.Proof.Gen.Kernel
import proofs.«133103_j50448685859138_2_alg».proof.Proof.Gen.Kernel.Frame
import proofs.«133103_j50448685859138_2_alg».proof.Proof.Gen.KernelIdeal
import proofs.«133103_j50448685859138_2_alg».proof.Proof.Gen.KernelIdeal.Frame
import proofs.«133103_j50448685859138_2_alg».proof.Proof.Gen.KernelIdeal.Value
import proofs.«133103_j50448685859138_2_alg».proof.Proof.Gen.ReferenceIdeal
import proofs.«133103_j50448685859138_2_alg».proof.Proof.Gen.ReferenceIdeal.Run
import proofs.«133103_j50448685859138_2_alg».proof.Proof.Gen.Pre_finite_inputs
import proofs.«133103_j50448685859138_2_alg».proof.Proof.KernelValue
import proofs.«133103_j50448685859138_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealised kernel. -/
theorem frame_kernel_ideal : Cert.frame_KernelIdeal := fun m ρ _ => Cert.KernelIdeal.Gen.frame m ρ

/-- The reference is host operations only: its run, with the result dropped, is its frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the layer's function of the arguments in their result arrays; from memories that agree on the
    arguments these are the same array. -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq _ _ _ _ _ _ _).trans ?_
  obtain ⟨e0, e1, e2, e3, e4, e5, e6⟩ := hagree c
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
